-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x256 : Shape := ⟨2, ![2000, 256]⟩
abbrev S2000x1 : Shape := ⟨2, ![2000, 1]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 63
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S256x256, .bf16⟩
  | .hbm, ⟨28, _⟩ => ⟨S256x128, .bf16⟩
  | .hbm, ⟨29, _⟩ => ⟨S50000x1, .f32⟩
  | .hbm, ⟨30, _⟩ => ⟨S50000x256, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x256, .f32⟩
  | .hbm, ⟨40, _⟩ => ⟨S_, .f32⟩
  | .hbm, ⟨41, _⟩ => ⟨S50000x256, .f32⟩
  | .hbm, ⟨42, _⟩ => ⟨S850000x1, .i32⟩
  | .hbm, ⟨43, _⟩ => ⟨S50000x256, .f32⟩
  | .hbm, ⟨44, _⟩ => ⟨S50000x1, .f32⟩
  | .hbm, ⟨45, _⟩ => ⟨S1x256, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S50000x1, .f32⟩
  | .hbm, ⟨61, _⟩ => ⟨S1x128, .f32⟩
  | .hbm, ⟨62, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  scatter_S50000_S850000x1_S850000_n_0_0_1_wf : ScatterDims.WF S50000 S850000x1 S850000 [] [0] [0] 1
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.HostTerms.lean ====
/-
  The host-side arrays of the graph convolution, named once.

  Both programs build the same edge lists and node weights from the edge-index argument `e : [2, 800000]`:
  the source list `srcVec e` and the target list `dstVec e` (a row of `e` followed by the self-loops `0 … 49999`),
  the degree `degVec e` (ones added at the target of every edge), the node weight `dinvVec e` (the inverse square
  root of the degree where it is positive, zero elsewhere), a list as a column of start indices for a scatter
  (`plainCol`) and for a gather (`wrapCol`: negative entries shifted up by the number of nodes first). The reference's
  whole result is then `refArr`: two rounds of "project, gather the source rows, weight each edge by `normVec`, add
  into the target rows, add the bias", with a rectification between them.
-/
import proofs.«162929_j661424964180_2_alg».proof.Proof.Gen.ReferenceIdeal
import Idealize.ShloMosaic.PureOps.Ideal

noncomputable section

namespace Cert.Gcn.Terms

open Cert.ReferenceIdeal Cert.ReferenceIdeal.Gen Idealize.ShloMosaic

/-- The source of every edge: row 0 of the edge index, then the self-loops. -/
def srcVec (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target of every edge: row 1 of the edge index, then the self-loops. -/
def dstVec (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A list of node numbers as the column of start indices of a scatter. -/
def plainCol (v : IVec S850000 32) : IVec S850000x1 32 := broadcastInDim S850000x1 ![0] bcast_S850000_S850000x1_0 v

/-- A list of node numbers as the column of start indices of a gather: a negative entry is shifted up by 50000 first. -/
def wrapCol (v : IVec S850000 32) : IVec S850000x1 32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The degree of every node: one added at the target of every edge. -/
def degVec (e : IVec S2x800000 32) : FVec Ideal S50000 .f32 :=
  Host.scatterAdd scatter_S50000_S850000x1_S850000_n_0_0_1 (broadcastInDim S50000 ![] bcast_S_S50000 (constant S_ .f32 0x00000000#32)) (plainCol (dstVec e)) (broadcastInDim S850000 ![] bcast_S_S850000 (constant S_ .f32 0x3F800000#32))

/-- The node weight: the inverse square root of the degree where the degree is positive, zero elsewhere. -/
def dinvVec (e : IVec S2x800000 32) : FVec Ideal S50000 .f32 :=
  select (cmpf (F := Ideal) .ogt (degVec e) (broadcastInDim S50000 ![] bcast_S_S50000 (constant S_ .f32 0x00000000#32))) (Host.rsqrt (degVec e)) (broadcastInDim S50000 ![] bcast_S_S50000 (id (constant S_ .f32 0x00000000#32)))

/-- The weight of every edge: the product of the weights of its source and of its target. -/
def normVec (e : IVec S2x800000 32) : FVec Ideal S850000 .f32 :=
  mulf (Host.gather gather_S50000_S850000x1_S850000_n_0_n_n_0_1_1 (dinvVec e) (wrapCol (srcVec e))) (Host.gather gather_S50000_S850000x1_S850000_n_0_n_n_0_1_1 (dinvVec e) (wrapCol (dstVec e)))

/-- The reference's hidden layer before the second projection. -/
def refHiddenArr (x0 : FVec Ideal S50000x256 .f32) (e : IVec S2x800000 32) (x2 : FVec Ideal S256x256 .f32) (x3 : FVec Ideal S256 .f32) :
    FVec Ideal S50000x256 .f32 :=
  maximumf (addf (Host.scatterAdd scatter_S50000x256_S850000x1_S850000x256_1_0_0_1 (broadcastInDim S50000x256 ![] bcast_S_S50000x256 (constant S_ .f32 0x00000000#32)) (plainCol (dstVec e)) (mulf (Host.gather gather_S50000x256_S850000x1_S850000x256_1_0_n_n_0_1_1256 (Host.dotGeneral dot_S50000x256_S256x256_S50000x256_1_0_0_1_n_n none x0 x2) (wrapCol (srcVec e))) (broadcastInDim S850000x256 ![0, 1] bcast_S850000x1_S850000x256_0_1 (broadcastInDim S850000x1 ![0] bcast_S850000_S850000x1_0 (normVec e))))) (broadcastInDim S50000x256 ![0, 1] bcast_S1x256_S50000x256_0_1 (broadcastInDim S1x256 ![1] bcast_S256_S1x256_1 x3))) (broadcastInDim S50000x256 ![] bcast_S_S50000x256 (constant S_ .f32 0x00000000#32))

/-- The reference's result. -/
def refArr (x0 : FVec Ideal S50000x256 .f32) (e : IVec S2x800000 32) (x2 : FVec Ideal S256x256 .f32) (x3 : FVec Ideal S256 .f32)
    (x4 : FVec Ideal S256x128 .f32) (x5 : FVec Ideal S128 .f32) : FVec Ideal S50000x128 .f32 :=
  addf (Host.scatterAdd scatter_S50000x128_S850000x1_S850000x128_1_0_0_1 (broadcastInDim S50000x128 ![] bcast_S_S50000x128 (constant S_ .f32 0x00000000#32)) (plainCol (dstVec e)) (mulf (Host.gather gather_S50000x128_S850000x1_S850000x128_1_0_n_n_0_1_1128 (Host.dotGeneral dot_S50000x256_S256x128_S50000x128_1_0_0_1_n_n none (refHiddenArr x0 e x2 x3) x4) (wrapCol (srcVec e))) (broadcastInDim S850000x128 ![0, 1] bcast_S850000x1_S850000x128_0_1 (broadcastInDim S850000x1 ![0] bcast_S850000_S850000x1_0 (normVec e))))) (broadcastInDim S50000x128 ![0, 1] bcast_S1x128_S50000x128_0_1 (broadcastInDim S1x128 ![1] bcast_S128_S1x128_1 x5))

end Cert.Gcn.Terms

end
-- ==== Proof.RefRunValue.lean ====
/-
  The reference run's result is the array `refArr` of the launch contents of the six arguments: the run's composed
  term and `refArr` are the same nest of host operations, the second with the edge lists and node weights named.
-/
import proofs.«162929_j661424964180_2_alg».proof.Proof.RefRunPatched
import proofs.«162929_j661424964180_2_alg».proof.Proof.HostTerms

noncomputable section

namespace Cert.Gcn.RefRunValue

open Cert.ReferenceIdeal Cert.ReferenceIdeal.Gen Idealize.ShloMosaic Idealize.ShloMosaic.TcCoe Idealize.SL.Sem

set_option maxRecDepth 8192 in
/-- The run's result term is `refArr` of the arguments' launch contents. -/
theorem res_eq (m : (ℓ : Loc nD τ sig) → Buf (Elt Ideal) ℓ) (c : Dev nD) :
    Cert.ReferenceIdeal.ValueP.res_main_v64 (F := Ideal) m c
      = Cert.Gcn.Terms.refArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v64 Cert.Gcn.Terms.refArr Cert.Gcn.Terms.refHiddenArr Cert.Gcn.Terms.normVec
    Cert.Gcn.Terms.dinvVec Cert.Gcn.Terms.degVec Cert.Gcn.Terms.plainCol Cert.Gcn.Terms.wrapCol Cert.Gcn.Terms.srcVec
    Cert.Gcn.Terms.dstVec
  rfl

end Cert.Gcn.RefRunValue

end
-- ==== Proof.KerRun.lean ====
/-
  The idealized kernel's run with its result named.

  @main is eight segments: three stretches of host operations, the first pallas region, a stretch, the second region, a
  stretch, the third region. The buffer contents at each boundary are a fold from the launch memory (`Gen.W0` … `Gen.W8`):
  a host stretch applies its operations, a region replaces its arrays by what its write-backs leave. Every weakly fair
  execution terminates, nothing faults, the six arguments end as launched, and the result buffer ends at the last
  boundary's contents `Gen.W8 m ρ c` read at it.
-/
import proofs.«162929_j661424964180_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KerHost.lean ====
/-
  The host operations of the idealized kernel between its regions, read as whole arrays.

  Each stretch of host operations is read at an arbitrary contents `V` of the buffers it starts from: the stretch
  before the first region builds the edge lists, the degrees and the node weights from the edge index, rounds the two
  weight matrices (the identity on the extended reals) and recasts the node weights as a column; the stretch before the
  second region gathers the source rows of the first region's result and adds them into the target rows, and recasts
  the node weights and the first bias; the stretch before the third region does the same with the second region's
  result and the second bias. A buffer a stretch does not write keeps its contents.
-/
import proofs.«162929_j661424964180_2_alg».proof.Proof.Gen.KernelIdeal.Frame
import proofs.«162929_j661424964180_2_alg».proof.Proof.HostTerms
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.Gcn.Terms

local notation "Val" => Valuation τ sig (Elt Ideal)

/-! ## The stretch that builds the edge lists and the degrees -/

section Stretch0
variable (V : Val) (e : IVec S2x800000 32) (he : (V (Proc.devRef .tc main_arg1) : S2x800000.Idx → BitVec 32) = e)
include he

theorem s0_v3 : (StableHlo.after hostOps0 V (Proc.devRef .tc main_v3) : S850000.Idx → BitVec 32) = srcVec e := by
  subst he; after_results; unfold srcVec; rfl
theorem s0_v6 : (StableHlo.after hostOps0 V (Proc.devRef .tc main_v6) : S850000.Idx → BitVec 32) = dstVec e := by
  subst he; after_results; unfold dstVec; rfl
theorem s0_v10 : (StableHlo.after hostOps0 V (Proc.devRef .tc main_v10) : S50000.Idx → EReal) = degVec e := by
  subst he; after_results; unfold degVec plainCol dstVec; rfl
theorem s0_v12 : (StableHlo.after hostOps0 V (Proc.devRef .tc main_v12) : S50000.Idx → BitVec 1)
    = cmpf (F := Ideal) .ogt (degVec e) (broadcastInDim S50000 ![] bcast_S_S50000 (constant S_ .f32 0x00000000#32)) := by
  rw [← s0_v10 V e he]; after_results
theorem s0_v13 : (StableHlo.after hostOps0 V (Proc.devRef .tc main_v13) : S50000.Idx → EReal) = Host.rsqrt (degVec e) := by
  rw [← s0_v10 V e he]; after_results
omit he in
theorem s0_cst2 : (StableHlo.after hostOps0 V (Proc.devRef .tc main_cst_2) : S_.Idx → EReal) = constant (F := Ideal) S_ .f32 0x00000000#32 := by
  after_results
omit he in
theorem s0_arg0 : StableHlo.after hostOps0 V (Proc.devRef .tc main_arg0) = V (Proc.devRef .tc main_arg0) := by after_results
omit he in
theorem s0_arg2 : StableHlo.after hostOps0 V (Proc.devRef .tc main_arg2) = V (Proc.devRef .tc main_arg2) := by after_results
omit he in
theorem s0_arg3 : StableHlo.after hostOps0 V (Proc.devRef .tc main_arg3) = V (Proc.devRef .tc main_arg3) := by after_results
omit he in
theorem s0_arg4 : StableHlo.after hostOps0 V (Proc.devRef .tc main_arg4) = V (Proc.devRef .tc main_arg4) := by after_results
omit he in
theorem s0_arg5 : StableHlo.after hostOps0 V (Proc.devRef .tc main_arg5) = V (Proc.devRef .tc main_arg5) := by after_results

end Stretch0

/-! ## The stretch that selects the node weights -/

section Stretch01
variable (V : Val)

theorem s01_v14 (a : IVec S50000 1) (b : FVec Ideal S50000 .f32) (z : FVec Ideal S_ .f32)
    (h12 : (V (Proc.devRef .tc main_v12) : S50000.Idx → BitVec 1) = a)
    (h13 : (V (Proc.devRef .tc main_v13) : S50000.Idx → EReal) = b)
    (hc : (V (Proc.devRef .tc main_cst_2) : S_.Idx → EReal) = z) :
    (StableHlo.after hostOps0_1 V (Proc.devRef .tc main_v14) : S50000.Idx → EReal)
      = select a b (broadcastInDim S50000 ![] bcast_S_S50000 (id z)) := by
  subst h12 h13 hc; after_results; rfl
theorem s01_v3 : StableHlo.after hostOps0_1 V (Proc.devRef .tc main_v3) = V (Proc.devRef .tc main_v3) := by after_results
theorem s01_v6 : StableHlo.after hostOps0_1 V (Proc.devRef .tc main_v6) = V (Proc.devRef .tc main_v6) := by after_results
theorem s01_arg0 : StableHlo.after hostOps0_1 V (Proc.devRef .tc main_arg0) = V (Proc.devRef .tc main_arg0) := by after_results
theorem s01_arg2 : StableHlo.after hostOps0_1 V (Proc.devRef .tc main_arg2) = V (Proc.devRef .tc main_arg2) := by after_results
theorem s01_arg3 : StableHlo.after hostOps0_1 V (Proc.devRef .tc main_arg3) = V (Proc.devRef .tc main_arg3) := by after_results
theorem s01_arg4 : StableHlo.after hostOps0_1 V (Proc.devRef .tc main_arg4) = V (Proc.devRef .tc main_arg4) := by after_results
theorem s01_arg5 : StableHlo.after hostOps0_1 V (Proc.devRef .tc main_arg5) = V (Proc.devRef .tc main_arg5) := by after_results

end Stretch01

/-! ## The stretch that rounds the weights and recasts the node weights -/

section Stretch02
variable (V : Val)

theorem s02_v15 : (StableHlo.after hostOps0_2 V (Proc.devRef .tc main_v15) : S256x256.Idx → EReal)
    = (V (Proc.devRef .tc main_arg2) : S256x256.Idx → EReal) := by after_results; rfl
theorem s02_v16 : (StableHlo.after hostOps0_2 V (Proc.devRef .tc main_v16) : S256x128.Idx → EReal)
    = (V (Proc.devRef .tc main_arg4) : S256x128.Idx → EReal) := by after_results; rfl
theorem s02_v17 : (StableHlo.after hostOps0_2 V (Proc.devRef .tc main_v17) : S50000x1.Idx → EReal)
    = shapeCast S50000x1 (V (Proc.devRef .tc main_v14) : S50000.Idx → EReal) shapeCasts_S50000_S50000x1 := by after_results; rfl
theorem s02_v3 : StableHlo.after hostOps0_2 V (Proc.devRef .tc main_v3) = V (Proc.devRef .tc main_v3) := by after_results
theorem s02_v6 : StableHlo.after hostOps0_2 V (Proc.devRef .tc main_v6) = V (Proc.devRef .tc main_v6) := by after_results
theorem s02_v14 : StableHlo.after hostOps0_2 V (Proc.devRef .tc main_v14) = V (Proc.devRef .tc main_v14) := by after_results
theorem s02_arg0 : StableHlo.after hostOps0_2 V (Proc.devRef .tc main_arg0) = V (Proc.devRef .tc main_arg0) := by after_results
theorem s02_arg3 : StableHlo.after hostOps0_2 V (Proc.devRef .tc main_arg3) = V (Proc.devRef .tc main_arg3) := by after_results
theorem s02_arg5 : StableHlo.after hostOps0_2 V (Proc.devRef .tc main_arg5) = V (Proc.devRef .tc main_arg5) := by after_results

end Stretch02

/-! ## The stretch between the first and the second region -/

section Stretch1
variable (V : Val)

theorem s1_v28 (s d : IVec S850000 32) (T : FVec Ideal S50000x256 .f32)
    (h3 : (V (Proc.devRef .tc main_v3) : S850000.Idx → BitVec 32) = s)
    (h6 : (V (Proc.devRef .tc main_v6) : S850000.Idx → BitVec 32) = d)
    (h18 : (V (Proc.devRef .tc main_v18) : S50000x256.Idx → EReal) = T) :
    (StableHlo.after hostOps1 V (Proc.devRef .tc main_v28) : S50000x256.Idx → EReal)
      = Host.scatterAdd scatter_S50000x256_S850000x1_S850000x256_1_0_0_1
          (broadcastInDim S50000x256 ![] bcast_S_S50000x256 (constant (F := Ideal) S_ .f32 0x00000000#32)) (plainCol d)
          (Host.gather gather_S50000x256_S850000x1_S850000x256_1_0_n_n_0_1_1256 T (wrapCol s)) := by
  subst h3 h6 h18; after_results; unfold plainCol wrapCol; rfl
theorem s1_v29 : (StableHlo.after hostOps1 V (Proc.devRef .tc main_v29) : S50000x1.Idx → EReal)
    = shapeCast S50000x1 (V (Proc.devRef .tc main_v14) : S50000.Idx → EReal) shapeCasts_S50000_S50000x1 := by after_results; rfl
theorem s1_v30 : (StableHlo.after hostOps1 V (Proc.devRef .tc main_v30) : S1x256.Idx → EReal)
    = shapeCast S1x256 (V (Proc.devRef .tc main_arg3) : S256.Idx → EReal) shapeCasts_S256_S1x256 := by after_results; rfl
theorem s1_v16 : StableHlo.after hostOps1 V (Proc.devRef .tc main_v16) = V (Proc.devRef .tc main_v16) := by after_results
theorem s1_v3 : StableHlo.after hostOps1 V (Proc.devRef .tc main_v3) = V (Proc.devRef .tc main_v3) := by after_results
theorem s1_v6 : StableHlo.after hostOps1 V (Proc.devRef .tc main_v6) = V (Proc.devRef .tc main_v6) := by after_results
theorem s1_v14 : StableHlo.after hostOps1 V (Proc.devRef .tc main_v14) = V (Proc.devRef .tc main_v14) := by after_results
theorem s1_arg5 : StableHlo.after hostOps1 V (Proc.devRef .tc main_arg5) = V (Proc.devRef .tc main_arg5) := by after_results

end Stretch1

/-! ## The stretch between the second and the third region -/

section Stretch2
variable (V : Val)

theorem s2_v41 (s d : IVec S850000 32) (T : FVec Ideal S50000x128 .f32)
    (h3 : (V (Proc.devRef .tc main_v3) : S850000.Idx → BitVec 32) = s)
    (h6 : (V (Proc.devRef .tc main_v6) : S850000.Idx → BitVec 32) = d)
    (h31 : (V (Proc.devRef .tc main_v31) : S50000x128.Idx → EReal) = T) :
    (StableHlo.after hostOps2 V (Proc.devRef .tc main_v41) : S50000x128.Idx → EReal)
      = Host.scatterAdd scatter_S50000x128_S850000x1_S850000x128_1_0_0_1
          (broadcastInDim S50000x128 ![] bcast_S_S50000x128 (constant (F := Ideal) S_ .f32 0x00000000#32)) (plainCol d)
          (Host.gather gather_S50000x128_S850000x1_S850000x128_1_0_n_n_0_1_1128 T (wrapCol s)) := by
  subst h3 h6 h31; after_results; unfold plainCol wrapCol; rfl
theorem s2_v42 : (StableHlo.after hostOps2 V (Proc.devRef .tc main_v42) : S50000x1.Idx → EReal)
    = shapeCast S50000x1 (V (Proc.devRef .tc main_v14) : S50000.Idx → EReal) shapeCasts_S50000_S50000x1 := by after_results; rfl
theorem s2_v43 : (StableHlo.after hostOps2 V (Proc.devRef .tc main_v43) : S1x128.Idx → EReal)
    = shapeCast S1x128 (V (Proc.devRef .tc main_arg5) : S128.Idx → EReal) shapeCasts_S128_S1x128 := by after_results; rfl

end Stretch2

end Cert.KernelIdeal.HostValue

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.KerRegion0.lean ====
/-
  The first region's result array, read at an index.

  The first body multiplies its block of 2000 feature rows by the whole weight matrix (the left operand rounded to
  bf16, which changes nothing at the exact instance; the accumulator starts at zero) and scales each row of the product
  by the row's factor: entry (p, q) of the block is (∑ j, x[p,j] * w[j,q]) * d[p,0]. The 25 grid points write the 25 row
  blocks of the result, point t rows 2000 t … 2000 t + 1999, reading the same rows of the features and of the factor
  column and the whole weight matrix. Rows of a product are the product of the rows, so the array the region leaves is
  ONE function of the arrays it finds: entry (p, q) is (∑ j, x[p,j] * w[j,q]) * d[p,0].
-/
import proofs.«162929_j661424964180_2_alg».proof.Proof.Gen.KernelIdeal.Frame
import Idealize.ShloMosaic.Lib.Pipeline.Value
import Idealize.ShloMosaic.Lib.ValueIdx
import Idealize.ShloMosaic.Lib.ValueLayout
import proofs.«162929_j661424964180_2_alg».proof.Proof.LibKeepdimsColumn
import proofs.«162929_j661424964180_2_alg».proof.Proof.LibPlainDot

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

theorem zeroOffsets0 : (![0, 0] : Fin 2 → Nat) = fun _ => 0 := funext fun a => by fin_cases a <;> rfl

/-- The first body's stored value at (p, q): the row block's row p times column q of the weights, scaled by the
    row's factor. Rounding the left operand to bf16 changes nothing at the exact instance. -/
theorem pay0_apply (v0 : Vec Ideal S2000x256 .f32) (v2 : Vec Ideal S256x256 .bf16) (v5 : Vec Ideal S2000x1 .f32)
    (p : Fin 2000) (q : Fin 256) :
    (k0_pay1 v0 v2 v5 : S2000x256.Idx → EReal) (ix2 p q)
      = (∑ k : Fin 256, (v0 : S2000x256.Idx → EReal) (ix2 p k) * (v2 : S256x256.Idx → EReal) (ix2 k q))
        * (v5 : S2000x1.Idx → EReal) (ix2 p (0 : Fin 1)) := by
  have hdot : dot_S2000x256_S256x256_S2000x256_1_0_0_1_n_n = DotDims.plain 2000 256 256 := rfl
  unfold k0_pay1
  simp only [shapeCast_self]
  rw [mulf_apply, Cert.Gcn.Lib.broadcastTo_a1_ab_apply]
  refine congrArg (· * (v5 : S2000x1.Idx → EReal) (ix2 p (0 : Fin 1))) ?_
  refine (congrFun (Cert.Lib.PlainDot.matmul_zero_eq _ hdot none (truncf .bf16 v0 bitsLt_bf16_f32) v2) (ix2 p q)).trans ?_
  rfl

/-- What the first body leaves in its output buffer, at (p, q), from its three input blocks. -/
theorem out0_apply (x0 : Vec Ideal S2000x256 .f32) (x1 : Vec Ideal S256x256 .bf16) (x2 : Vec Ideal S2000x1 .f32)
    (p : Fin 2000) (q : Fin 256) :
    (out0_3 x0 x1 x2 : S2000x256.Idx → EReal) (ix2 p q)
      = (∑ k : Fin 256, (x0 : S2000x256.Idx → EReal) (ix2 p k) * (x1 : S256x256.Idx → EReal) (ix2 k q))
        * (x2 : S2000x1.Idx → EReal) (ix2 p (0 : Fin 1)) := by
  unfold out0_3
  rw [View.canon_unit_zero zeroOffsets0]
  simp only [View.ld_unit_zero (S := S2000x256) zeroOffsets0, View.ld_unit_zero (S := S256x256) zeroOffsets0,
    View.ld_unit_zero (S := S2000x1) zeroOffsets0]
  exact pay0_apply x0 x1 x2 p q

/-- A matrix product with its rows scaled by a per-row factor: entry (p, q) is (∑ j, x[p,j] * w[j,q]) * d[p,0]. -/
def productScaled {n k m : ℕ} (x : (⟨2, ![n, k]⟩ : Shape).Idx → EReal) (w : (⟨2, ![k, m]⟩ : Shape).Idx → EReal)
    (d : (⟨2, ![n, 1]⟩ : Shape).Idx → EReal) : (⟨2, ![n, m]⟩ : Shape).Idx → EReal :=
  fun i => (∑ j : Fin k, x (ix2 (i 0) j) * w (ix2 j (i 1))) * d (ix2 (i 0) (0 : Fin 1))

/-- The printed index maps over the grid: the row-blocked windows sit at block row t, the weights' window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- The first window's block at point t holds rows 2000 t … 2000 t + 1999 of the features. -/
theorem blk0_0_apply (t : Fin cfg0.N) (p : Fin 2000) (k : Fin 256) (i : S50000x256.Idx)
    (h0 : (i 0).val = t.val * 2000 + p.val) (h1 : (i 1).val = k.val) :
    (iblk0 V c 0 t : S2000x256.Idx → EReal) (ix2 p k) = (V c main_arg0 : S50000x256.Idx → EReal) i := by
  obtain ⟨e0, e1, -⟩ := idx_facts0 t
  unfold iblk0
  show (V c main_arg0 : S50000x256.Idx → EReal) _ = _
  refine congrArg _ (funext fun a => Fin.ext ?_)
  match a with
  | ⟨0, _⟩ => show win0_0.index t (0 : Fin 2) * 2000 + 1 * p.val = (i 0).val; rw [e0, h0]; omega
  | ⟨1, _⟩ => show win0_0.index t (1 : Fin 2) * 256 + 1 * k.val = (i 1).val; rw [e1, h1]; omega

/-- The second window's block at every point is the whole weight matrix. -/
theorem blk0_1_apply (t : Fin cfg0.N) (k : Fin 256) (q : Fin 256) (i : S256x256.Idx)
    (h0 : (i 0).val = k.val) (h1 : (i 1).val = q.val) :
    (iblk0 V c 1 t : S256x256.Idx → EReal) (ix2 k q) = (V c main_v15 : S256x256.Idx → EReal) i := by
  obtain ⟨-, -, e0, e1, -⟩ := idx_facts0 t
  unfold iblk0
  show (V c main_v15 : S256x256.Idx → EReal) _ = _
  refine congrArg _ (funext fun a => Fin.ext ?_)
  match a with
  | ⟨0, _⟩ => show win0_1.index t (0 : Fin 2) * 256 + 1 * k.val = (i 0).val; rw [e0, h0]; omega
  | ⟨1, _⟩ => show win0_1.index t (1 : Fin 2) * 256 + 1 * q.val = (i 1).val; rw [e1, h1]; omega

/-- The third window's block at point t holds rows 2000 t … 2000 t + 1999 of the factor column. -/
theorem blk0_2_apply (t : Fin cfg0.N) (p : Fin 2000) (i : S50000x1.Idx)
    (h0 : (i 0).val = t.val * 2000 + p.val) :
    (iblk0 V c 2 t : S2000x1.Idx → EReal) (ix2 p (0 : Fin 1)) = (V c main_v17 : S50000x1.Idx → EReal) i := by
  obtain ⟨-, -, -, -, e0, e1, -⟩ := idx_facts0 t
  unfold iblk0
  show (V c main_v17 : S50000x1.Idx → EReal) _ = _
  refine congrArg _ (funext fun a => Fin.ext ?_)
  match a with
  | ⟨0, _⟩ => show win0_2.index t (0 : Fin 2) * 2000 + 1 * p.val = (i 0).val; rw [e0, h0]; omega
  | ⟨1, _⟩ => show win0_2.index t (1 : Fin 2) * 1 + 1 * 0 = (i 1).val; rw [e1]; have h1 : (i 1).val < 1 := (i 1).isLt; omega

/-- What point t writes back is block t of the one whole-array function. -/
theorem flushed0_eq (t : Fin cfg0.N) :
    (dat0 V c).flushed 3 t = ((cfg0.win 3).blk t).view.read (Elt Ideal)
      (productScaled (V c main_arg0 : S50000x256.Idx → EReal) (V c main_v15 : S256x256.Idx → EReal) (V c main_v17 : S50000x1.Idx → EReal)) := by
  show (cfg0.win 3).cut (grid0.coords t) ((dat0 V c).after 3 t) = _
  rw [after0_3]
  obtain ⟨-, -, -, -, -, -, e0, e1⟩ := idx_facts0 t
  funext j
  obtain ⟨p, q, rfl⟩ : ∃ (p : Fin 2000) (q : Fin 256), j = ix2 p q := ⟨j 0, j 1, eq_ix2 j⟩
  refine (out0_apply (iblk0 V c 0 t) (iblk0 V c 1 t) (iblk0 V c 2 t) p q).trans ?_
  show _ = productScaled (V c main_arg0 : S50000x256.Idx → EReal) (V c main_v15 : S256x256.Idx → EReal) (V c main_v17 : S50000x1.Idx → EReal)
    (((cfg0.win 3).blk t).view.emb (ix2 p q))
  have hr : ((((cfg0.win 3).blk t).view.emb (ix2 p q)) 0).val = t.val * 2000 + p.val := by
    show win0_3.index t (0 : Fin 2) * 2000 + 1 * p.val = _; rw [e0]; omega
  have hc : ((((cfg0.win 3).blk t).view.emb (ix2 p q)) 1).val = q.val := by
    show win0_3.index t (1 : Fin 2) * 256 + 1 * q.val = _; rw [e1]; omega
  unfold productScaled
  rw [blk0_2_apply V c t p (ix2 ((((cfg0.win 3).blk t).view.emb (ix2 p q)) 0) (0 : Fin 1)) hr]
  refine congrArg (· * _) (Finset.sum_congr rfl fun k _ => ?_)
  rw [blk0_0_apply V c t p k (ix2 ((((cfg0.win 3).blk t).view.emb (ix2 p q)) 0) k) hr rfl,
    blk0_1_apply V c t k q (ix2 k ((((cfg0.win 3).blk t).view.emb (ix2 p q)) 1)) rfl hc]

/-- An index of the array is in point t's block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v18).slice (win0_3.rect t)).set ↔ _
  rw [View.set_slice_whole, Rect.mem_set_unit]
  exact Iff.rfl

/-- Every row of the array is in the block of the point row / 2000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_3 _, ?_⟩
  rw [mem_blk0]
  obtain ⟨-, -, -, -, -, -, e0, e1⟩ := idx_facts0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e1]; omega

/-- The array the first region leaves: the features times the weights, rows scaled, as one function of the
    region-entry arrays. -/
theorem final0 : (dat0 V c).arrAt 3 cfg0.N
    = productScaled (V c main_arg0 : S50000x256.Idx → EReal) (V c main_v15 : S256x256.Idx → EReal) (V c main_v17 : S50000x1.Idx → EReal) :=
  (dat0 V c).arrAt_eq_of_cover 3 _ (fun t _ => flushed0_eq V c t) cover0

/-- The first region's result at (p, q), over any names x, w, d for the three arrays the region finds. -/
theorem region0_value_of (x : S50000x256.Idx → EReal) (w : S256x256.Idx → EReal) (d : S50000x1.Idx → EReal)
    (hx : V c main_arg0 = x) (hw : V c main_v15 = w) (hd : V c main_v17 = d) (p : Fin 50000) (q : Fin 256) :
    ((Gen.dat0 (F := Ideal) V c).arrAt 3 cfg0.N : S50000x256.Idx → EReal) (ix2 p q)
      = (∑ k : Fin 256, x (ix2 p k) * w (ix2 k q)) * d (ix2 p 0) := by
  subst hx hw hd
  rw [final0 V c]
  rfl

end Cert.KernelIdeal.RegionValue

end
-- ==== Proof.KerRegion1.lean ====
/-
  The second region's result array, read at an index.

  The second body forms, for its block of 2000 rows, the rectified hidden block h[p,j] = max (a[p,j] * d[p,0] + b[0,j]) 0
  (the aggregated entry scaled by the row's factor, plus the bias of the column, the maximum taken with zero), multiplies
  it by the whole weight matrix (the left operand rounded to bf16, which changes nothing at the exact instance; the
  accumulator starts at zero) and scales each row of the product by the row's factor again: entry (p, q) of the block is
  (∑ j, h[p,j] * w[j,q]) * d[p,0]. The 25 grid points write the 25 row blocks of the result, point t rows
  2000 t … 2000 t + 1999, reading the same rows of the aggregated array and of the factor column, the whole bias row and
  the whole weight matrix. So the array the region leaves is ONE function of the arrays it finds.
-/
import proofs.«162929_j661424964180_2_alg».proof.Proof.Gen.KernelIdeal.Frame
import Idealize.ShloMosaic.Lib.Pipeline.Value
import Idealize.ShloMosaic.Lib.ValueIdx
import Idealize.ShloMosaic.Lib.ValueLayout
import proofs.«162929_j661424964180_2_alg».proof.Proof.LibKeepdimsColumn
import proofs.«162929_j661424964180_2_alg».proof.Proof.LibPlainDot

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

theorem zeroOffsets1 : (![0, 0] : Fin 2 → Nat) = fun _ => 0 := funext fun a => by fin_cases a <;> rfl

/-- The second body's stored value at (p, q): row p of the rectified hidden block (the aggregated entry scaled by the
    row's factor, plus the bias of the column, the maximum taken with zero) times column q of the weights, scaled by
    the row's factor. Rounding the left operand to bf16 changes nothing at the exact instance. -/
theorem pay1_apply (v0 : Vec Ideal S2000x1 .f32) (v4 : Vec Ideal S1x256 .f32) (v8 : Vec Ideal S2000x256 .f32)
    (v15 : Vec Ideal S256x128 .bf16) (v18 : Vec Ideal S2000x1 .f32) (p : Fin 2000) (q : Fin 128) :
    (k1_pay1 v0 v4 v8 v15 v18 : S2000x128.Idx → EReal) (ix2 p q)
      = (∑ k : Fin 256, max ((v8 : S2000x256.Idx → EReal) (ix2 p k) * (v0 : S2000x1.Idx → EReal) (ix2 p (0 : Fin 1))
            + (v4 : S1x256.Idx → EReal) (ix2 (0 : Fin 1) k)) 0 * (v15 : S256x128.Idx → EReal) (ix2 k q))
        * (v18 : S2000x1.Idx → EReal) (ix2 p (0 : Fin 1)) := by
  have hdot : dot_S2000x256_S256x128_S2000x128_1_0_0_1_n_n = DotDims.plain 2000 256 128 := rfl
  unfold k1_pay1
  simp only [shapeCast_self]
  rw [mulf_apply, Cert.Gcn.Lib.broadcastTo_a1_ab_apply]
  refine congrArg (· * (v18 : S2000x1.Idx → EReal) (ix2 p (0 : Fin 1))) ?_
  refine (congrFun (Cert.Lib.PlainDot.matmul_zero_eq _ hdot none _ v15) (ix2 p q)).trans ?_
  refine Finset.sum_congr rfl fun k _ => congrArg (· * (v15 : S256x128.Idx → EReal) (ix2 k q)) ?_
  rw [truncf_apply, maximumf_apply, addf_apply, mulf_apply, Cert.Gcn.Lib.broadcastTo_a1_ab_apply,
    broadcastTo_1b_ab_apply, broadcast_apply]
  exact congrArg (max _) Ideal.ofBits_zero_f32

/-- What the second body leaves in its output buffer, at (p, q), from its four input blocks. -/
theorem out1_apply (x0 : Vec Ideal S2000x256 .f32) (x1 : Vec Ideal S2000x1 .f32) (x2 : Vec Ideal S1x256 .f32)
    (x3 : Vec Ideal S256x128 .bf16) (p : Fin 2000) (q : Fin 128) :
    (out1_4 x0 x1 x2 x3 : S2000x128.Idx → EReal) (ix2 p q)
      = (∑ k : Fin 256, max ((x0 : S2000x256.Idx → EReal) (ix2 p k) * (x1 : S2000x1.Idx → EReal) (ix2 p (0 : Fin 1))
            + (x2 : S1x256.Idx → EReal) (ix2 (0 : Fin 1) k)) 0 * (x3 : S256x128.Idx → EReal) (ix2 k q))
        * (x1 : S2000x1.Idx → EReal) (ix2 p (0 : Fin 1)) := by
  unfold out1_4
  rw [View.canon_unit_zero zeroOffsets1]
  simp only [View.ld_unit_zero (S := S2000x256) zeroOffsets1, View.ld_unit_zero (S := S2000x1) zeroOffsets1,
    View.ld_unit_zero (S := S1x256) zeroOffsets1, View.ld_unit_zero (S := S256x128) zeroOffsets1]
  exact pay1_apply x1 x2 x0 x3 x1 p q

/-- A rectified hidden layer times a weight matrix, rows scaled: with h[p,j] = max (a[p,j] * d[p,0] + b[0,j]) 0,
    entry (p, q) is (∑ j, h[p,j] * w[j,q]) * d[p,0]. -/
def hiddenProductScaled {n k m : ℕ} (a : (⟨2, ![n, k]⟩ : Shape).Idx → EReal) (d : (⟨2, ![n, 1]⟩ : Shape).Idx → EReal)
    (b : (⟨2, ![1, k]⟩ : Shape).Idx → EReal) (w : (⟨2, ![k, m]⟩ : Shape).Idx → EReal) :
    (⟨2, ![n, m]⟩ : Shape).Idx → EReal :=
  fun i => (∑ j : Fin k, max (a (ix2 (i 0) j) * d (ix2 (i 0) (0 : Fin 1)) + b (ix2 (0 : Fin 1) j)) 0 * w (ix2 j (i 1)))
    * d (ix2 (i 0) (0 : Fin 1))

/-- The printed index maps over the grid: the row-blocked windows sit at block row t, the bias and weight windows at
    block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b)) (c : Dev nD)

/-- The first window's block at point t holds rows 2000 t … 2000 t + 1999 of the aggregated array. -/
theorem blk1_0_apply (t : Fin cfg1.N) (p : Fin 2000) (k : Fin 256) (i : S50000x256.Idx)
    (h0 : (i 0).val = t.val * 2000 + p.val) (h1 : (i 1).val = k.val) :
    (iblk1 V c 0 t : S2000x256.Idx → EReal) (ix2 p k) = (V c main_v28 : S50000x256.Idx → EReal) i := by
  obtain ⟨e0, e1, -⟩ := idx_facts1 t
  unfold iblk1
  show (V c main_v28 : S50000x256.Idx → EReal) _ = _
  refine congrArg _ (funext fun a => Fin.ext ?_)
  match a with
  | ⟨0, _⟩ => show win1_0.index t (0 : Fin 2) * 2000 + 1 * p.val = (i 0).val; rw [e0, h0]; omega
  | ⟨1, _⟩ => show win1_0.index t (1 : Fin 2) * 256 + 1 * k.val = (i 1).val; rw [e1, h1]; omega

/-- The second window's block at point t holds rows 2000 t … 2000 t + 1999 of the factor column. -/
theorem blk1_1_apply (t : Fin cfg1.N) (p : Fin 2000) (i : S50000x1.Idx)
    (h0 : (i 0).val = t.val * 2000 + p.val) :
    (iblk1 V c 1 t : S2000x1.Idx → EReal) (ix2 p (0 : Fin 1)) = (V c main_v29 : S50000x1.Idx → EReal) i := by
  obtain ⟨-, -, e0, e1, -⟩ := idx_facts1 t
  unfold iblk1
  show (V c main_v29 : S50000x1.Idx → EReal) _ = _
  refine congrArg _ (funext fun a => Fin.ext ?_)
  match a with
  | ⟨0, _⟩ => show win1_1.index t (0 : Fin 2) * 2000 + 1 * p.val = (i 0).val; rw [e0, h0]; omega
  | ⟨1, _⟩ => show win1_1.index t (1 : Fin 2) * 1 + 1 * 0 = (i 1).val; rw [e1]; have h1 : (i 1).val < 1 := (i 1).isLt; omega

/-- The third window's block at every point is the whole bias row. -/
theorem blk1_2_apply (t : Fin cfg1.N) (k : Fin 256) :
    (iblk1 V c 2 t : S1x256.Idx → EReal) (ix2 (0 : Fin 1) k) = (V c main_v30 : S1x256.Idx → EReal) (ix2 (0 : Fin 1) k) := by
  obtain ⟨-, -, -, -, e0, e1, -⟩ := idx_facts1 t
  unfold iblk1
  show (V c main_v30 : S1x256.Idx → EReal) _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 256 + 1 * k.val = k.val; rw [e1]; omega

/-- The fourth window's block at every point is the whole weight matrix. -/
theorem blk1_3_apply (t : Fin cfg1.N) (k : Fin 256) (q : Fin 128) (i : S256x128.Idx)
    (h0 : (i 0).val = k.val) (h1 : (i 1).val = q.val) :
    (iblk1 V c 3 t : S256x128.Idx → EReal) (ix2 k q) = (V c main_v16 : S256x128.Idx → EReal) i := by
  obtain ⟨-, -, -, -, -, -, e0, e1, -⟩ := idx_facts1 t
  unfold iblk1
  show (V c main_v16 : S256x128.Idx → EReal) _ = _
  refine congrArg _ (funext fun a => Fin.ext ?_)
  match a with
  | ⟨0, _⟩ => show win1_3.index t (0 : Fin 2) * 256 + 1 * k.val = (i 0).val; rw [e0, h0]; omega
  | ⟨1, _⟩ => show win1_3.index t (1 : Fin 2) * 128 + 1 * q.val = (i 1).val; rw [e1, h1]; omega

/-- What point t writes back is block t of the one whole-array function. -/
theorem flushed1_eq (t : Fin cfg1.N) :
    (dat1 V c).flushed 4 t = ((cfg1.win 4).blk t).view.read (Elt Ideal)
      (hiddenProductScaled (V c main_v28 : S50000x256.Idx → EReal) (V c main_v29 : S50000x1.Idx → EReal)
        (V c main_v30 : S1x256.Idx → EReal) (V c main_v16 : S256x128.Idx → EReal)) := by
  show (cfg1.win 4).cut (grid1.coords t) ((dat1 V c).after 4 t) = _
  rw [after1_4]
  obtain ⟨-, -, -, -, -, -, -, -, e0, e1⟩ := idx_facts1 t
  funext j
  obtain ⟨p, q, rfl⟩ : ∃ (p : Fin 2000) (q : Fin 128), j = ix2 p q := ⟨j 0, j 1, eq_ix2 j⟩
  refine (out1_apply (iblk1 V c 0 t) (iblk1 V c 1 t) (iblk1 V c 2 t) (iblk1 V c 3 t) p q).trans ?_
  show _ = hiddenProductScaled (V c main_v28 : S50000x256.Idx → EReal) (V c main_v29 : S50000x1.Idx → EReal)
    (V c main_v30 : S1x256.Idx → EReal) (V c main_v16 : S256x128.Idx → EReal) (((cfg1.win 4).blk t).view.emb (ix2 p q))
  have hr : ((((cfg1.win 4).blk t).view.emb (ix2 p q)) 0).val = t.val * 2000 + p.val := by
    show win1_4.index t (0 : Fin 2) * 2000 + 1 * p.val = _; rw [e0]; omega
  have hc : ((((cfg1.win 4).blk t).view.emb (ix2 p q)) 1).val = q.val := by
    show win1_4.index t (1 : Fin 2) * 128 + 1 * q.val = _; rw [e1]; omega
  unfold hiddenProductScaled
  rw [blk1_1_apply V c t p (ix2 ((((cfg1.win 4).blk t).view.emb (ix2 p q)) 0) (0 : Fin 1)) hr]
  refine congrArg (· * _) (Finset.sum_congr rfl fun k _ => ?_)
  rw [blk1_0_apply V c t p k (ix2 ((((cfg1.win 4).blk t).view.emb (ix2 p q)) 0) k) hr rfl,
    blk1_2_apply V c t k,
    blk1_3_apply V c t k q (ix2 k ((((cfg1.win 4).blk t).view.emb (ix2 p q)) 1)) rfl hc]

/-- An index of the array is in point t's block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v31).slice (win1_4.rect t)).set ↔ _
  rw [View.set_slice_whole, Rect.mem_set_unit]
  exact Iff.rfl

/-- Every row of the array is in the block of the point row / 2000. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_4 _, ?_⟩
  rw [mem_blk1]
  obtain ⟨-, -, -, -, -, -, -, -, e0, e1⟩ := idx_facts1 ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 128 ≤ (i 1).val ∧ (i 1).val < win1_4.index _ (1 : Fin 2) * 128 + 128
    rw [e1]; omega

/-- The array the second region leaves: the rectified hidden layer times the weights, rows scaled, as one function of
    the region-entry arrays. -/
theorem final1 : (dat1 V c).arrAt 4 cfg1.N
    = hiddenProductScaled (V c main_v28 : S50000x256.Idx → EReal) (V c main_v29 : S50000x1.Idx → EReal)
        (V c main_v30 : S1x256.Idx → EReal) (V c main_v16 : S256x128.Idx → EReal) :=
  (dat1 V c).arrAt_eq_of_cover 4 _ (fun t _ => flushed1_eq V c t) cover1

/-- The second region's result at (p, q), over any names a, d, b, w for the four arrays the region finds. -/
theorem region1_value_of (a : S50000x256.Idx → EReal) (d : S50000x1.Idx → EReal) (b : S1x256.Idx → EReal)
    (w : S256x128.Idx → EReal) (ha : V c main_v28 = a) (hd : V c main_v29 = d) (hb : V c main_v30 = b)
    (hw : V c main_v16 = w) (p : Fin 50000) (q : Fin 128) :
    ((Gen.dat1 (F := Ideal) V c).arrAt 4 cfg1.N : S50000x128.Idx → EReal) (ix2 p q)
      = (∑ k : Fin 256, max (a (ix2 p k) * d (ix2 p 0) + b (ix2 0 k)) 0 * w (ix2 k q)) * d (ix2 p 0) := by
  subst ha hd hb hw
  rw [final1 V c]
  rfl

end Cert.KernelIdeal.RegionValue

end
-- ==== Proof.KerRegion2.lean ====
/-
  The third region's result array, read at an index.

  The third body stores, for its block of 2000 rows, the block of the aggregated array scaled row by row by the factor
  column and shifted by the bias row: entry (p, q) of the block is x[p,q] * d[p,0] + b[0,q]. The 25 grid points write
  the 25 row blocks of the result, point t rows 2000 t … 2000 t + 1999, reading the same rows of the aggregated array
  and of the factor column and the whole bias row. So the array the region leaves is ONE function of the arrays it
  finds: entry (p, q) is a[p,q] * d[p,0] + b[0,q].
-/
import proofs.«162929_j661424964180_2_alg».proof.Proof.Gen.KernelIdeal.Frame
import Idealize.ShloMosaic.Lib.Pipeline.Value
import Idealize.ShloMosaic.Lib.ValueIdx
import Idealize.ShloMosaic.Lib.ValueLayout
import proofs.«162929_j661424964180_2_alg».proof.Proof.LibKeepdimsColumn

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

theorem zeroOffsets2 : (![0, 0] : Fin 2 → Nat) = fun _ => 0 := funext fun a => by fin_cases a <;> rfl

/-- The third body's stored value at (p, q): the row block's entry scaled by the row's factor, plus the bias of
    the column. -/
theorem pay2_apply (v0 : Vec Ideal S2000x1 .f32) (v4 : Vec Ideal S1x128 .f32) (v8 : Vec Ideal S2000x128 .f32)
    (p : Fin 2000) (q : Fin 128) :
    (k2_pay1 v0 v4 v8 : S2000x128.Idx → EReal) (ix2 p q)
      = (v8 : S2000x128.Idx → EReal) (ix2 p q) * (v0 : S2000x1.Idx → EReal) (ix2 p (0 : Fin 1))
        + (v4 : S1x128.Idx → EReal) (ix2 (0 : Fin 1) q) := by
  unfold k2_pay1
  simp only [shapeCast_self]
  rw [addf_apply, mulf_apply, Cert.Gcn.Lib.broadcastTo_a1_ab_apply, broadcastTo_1b_ab_apply]

/-- What the third body leaves in its output buffer, at (p, q), from its three input blocks. -/
theorem out2_apply (x0 : Vec Ideal S2000x128 .f32) (x1 : Vec Ideal S2000x1 .f32) (x2 : Vec Ideal S1x128 .f32)
    (p : Fin 2000) (q : Fin 128) :
    (out2_3 x0 x1 x2 : S2000x128.Idx → EReal) (ix2 p q)
      = (x0 : S2000x128.Idx → EReal) (ix2 p q) * (x1 : S2000x1.Idx → EReal) (ix2 p (0 : Fin 1))
        + (x2 : S1x128.Idx → EReal) (ix2 (0 : Fin 1) q) := by
  unfold out2_3
  rw [View.canon_unit_zero zeroOffsets2]
  simp only [View.ld_unit_zero (S := S2000x128) zeroOffsets2, View.ld_unit_zero (S := S2000x1) zeroOffsets2,
    View.ld_unit_zero (S := S1x128) zeroOffsets2]
  exact pay2_apply x1 x2 x0 p q

/-- Rows scaled by a per-row factor, plus a bias row: entry (p, q) is a[p,q] * d[p,0] + b[0,q]. -/
def rowScaleBias {n k : ℕ} (a : (⟨2, ![n, k]⟩ : Shape).Idx → EReal) (d : (⟨2, ![n, 1]⟩ : Shape).Idx → EReal)
    (b : (⟨2, ![1, k]⟩ : Shape).Idx → EReal) : (⟨2, ![n, k]⟩ : Shape).Idx → EReal :=
  fun i => a i * d (ix2 (i 0) (0 : Fin 1)) + b (ix2 (0 : Fin 1) (i 1))

/-- The printed index maps over the grid: the row-blocked windows sit at block row t, the bias window at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b)) (c : Dev nD)

/-- The first window's block at point t holds rows 2000 t … 2000 t + 1999 of its array. -/
theorem blk2_0_apply (t : Fin cfg2.N) (p : Fin 2000) (q : Fin 128) (i : S50000x128.Idx)
    (h0 : (i 0).val = t.val * 2000 + p.val) (h1 : (i 1).val = q.val) :
    (iblk2 V c 0 t : S2000x128.Idx → EReal) (ix2 p q) = (V c main_v41 : S50000x128.Idx → EReal) i := by
  obtain ⟨e0, e1, -⟩ := idx_facts2 t
  unfold iblk2
  rw [View.read_apply]
  show (V c main_v41 : S50000x128.Idx → EReal) _ = _
  refine congrArg _ (funext fun a => Fin.ext ?_)
  match a with
  | ⟨0, _⟩ => show win2_0.index t (0 : Fin 2) * 2000 + 1 * p.val = (i 0).val; rw [e0, h0]; omega
  | ⟨1, _⟩ => show win2_0.index t (1 : Fin 2) * 128 + 1 * q.val = (i 1).val; rw [e1, h1]; omega

/-- The second window's block at point t holds rows 2000 t … 2000 t + 1999 of the factor column. -/
theorem blk2_1_apply (t : Fin cfg2.N) (p : Fin 2000) (i : S50000x1.Idx)
    (h0 : (i 0).val = t.val * 2000 + p.val) :
    (iblk2 V c 1 t : S2000x1.Idx → EReal) (ix2 p (0 : Fin 1)) = (V c main_v42 : S50000x1.Idx → EReal) i := by
  obtain ⟨-, -, e0, e1, -⟩ := idx_facts2 t
  unfold iblk2
  rw [View.read_apply]
  show (V c main_v42 : S50000x1.Idx → EReal) _ = _
  refine congrArg _ (funext fun a => Fin.ext ?_)
  match a with
  | ⟨0, _⟩ => show win2_1.index t (0 : Fin 2) * 2000 + 1 * p.val = (i 0).val; rw [e0, h0]; omega
  | ⟨1, _⟩ => show win2_1.index t (1 : Fin 2) * 1 + 1 * 0 = (i 1).val; rw [e1]; have h1 : (i 1).val < 1 := (i 1).isLt; omega

/-- The third window's block at every point is the whole bias row. -/
theorem blk2_2_apply (t : Fin cfg2.N) (q : Fin 128) (i : S1x128.Idx) (h1 : (i 1).val = q.val) :
    (iblk2 V c 2 t : S1x128.Idx → EReal) (ix2 (0 : Fin 1) q) = (V c main_v43 : S1x128.Idx → EReal) i := by
  obtain ⟨-, -, -, -, e0, e1, -⟩ := idx_facts2 t
  unfold iblk2
  rw [View.read_apply]
  show (V c main_v43 : S1x128.Idx → EReal) _ = _
  refine congrArg _ (funext fun a => Fin.ext ?_)
  match a with
  | ⟨0, _⟩ => show win2_2.index t (0 : Fin 2) * 1 + 1 * 0 = (i 0).val; rw [e0]; have h0 : (i 0).val < 1 := (i 0).isLt; omega
  | ⟨1, _⟩ => show win2_2.index t (1 : Fin 2) * 128 + 1 * q.val = (i 1).val; rw [e1, h1]; omega

/-- What point t writes back is block t of the one whole-array function. -/
theorem flushed2_eq (t : Fin cfg2.N) :
    (dat2 V c).flushed 3 t = ((cfg2.win 3).blk t).view.read (Elt Ideal)
      (rowScaleBias (V c main_v41 : S50000x128.Idx → EReal) (V c main_v42 : S50000x1.Idx → EReal) (V c main_v43 : S1x128.Idx → EReal)) := by
  show (cfg2.win 3).cut (grid2.coords t) ((dat2 V c).after 3 t) = _
  rw [after2_3]
  obtain ⟨-, -, -, -, -, -, e0, e1⟩ := idx_facts2 t
  funext j
  obtain ⟨p, q, rfl⟩ : ∃ (p : Fin 2000) (q : Fin 128), j = ix2 p q := ⟨j 0, j 1, eq_ix2 j⟩
  refine (out2_apply (iblk2 V c 0 t) (iblk2 V c 1 t) (iblk2 V c 2 t) p q).trans ?_
  show _ = rowScaleBias (V c main_v41 : S50000x128.Idx → EReal) (V c main_v42 : S50000x1.Idx → EReal) (V c main_v43 : S1x128.Idx → EReal)
    (((cfg2.win 3).blk t).view.emb (ix2 p q))
  have hr : ((((cfg2.win 3).blk t).view.emb (ix2 p q)) 0).val = t.val * 2000 + p.val := by
    show win2_3.index t (0 : Fin 2) * 2000 + 1 * p.val = _; rw [e0]; omega
  have hc : ((((cfg2.win 3).blk t).view.emb (ix2 p q)) 1).val = q.val := by
    show win2_3.index t (1 : Fin 2) * 128 + 1 * q.val = _; rw [e1]; omega
  unfold rowScaleBias
  rw [blk2_0_apply V c t p q _ hr hc, blk2_1_apply V c t p (ix2 ((((cfg2.win 3).blk t).view.emb (ix2 p q)) 0) (0 : Fin 1)) hr, blk2_2_apply V c t q (ix2 (0 : Fin 1) ((((cfg2.win 3).blk t).view.emb (ix2 p q)) 1)) hc]

/-- An index of the array is in point t's block iff each coordinate is in the block's range on its axis. -/
theorem mem_blk2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v44).slice (win2_3.rect t)).set ↔ _
  rw [View.set_slice_whole, Rect.mem_set_unit]
  exact Iff.rfl

/-- Every row of the array is in the block of the point row / 2000. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_3 _, ?_⟩
  rw [mem_blk2]
  obtain ⟨-, -, -, -, -, -, e0, e1⟩ := idx_facts2 ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e0]; show (i 0).val / 2000 * 2000 ≤ (i 0).val ∧ (i 0).val < (i 0).val / 2000 * 2000 + 2000; omega
  | ⟨1, _⟩ =>
    show win2_3.index _ (1 : Fin 2) * 128 ≤ (i 1).val ∧ (i 1).val < win2_3.index _ (1 : Fin 2) * 128 + 128
    rw [e1]; omega

/-- The array the third region leaves: rows scaled and biased, as one function of the region-entry arrays. -/
theorem final2 : (dat2 V c).arrAt 3 cfg2.N
    = rowScaleBias (V c main_v41 : S50000x128.Idx → EReal) (V c main_v42 : S50000x1.Idx → EReal) (V c main_v43 : S1x128.Idx → EReal) :=
  (dat2 V c).arrAt_eq_of_cover 3 _ (fun t _ => flushed2_eq V c t) cover2

/-- The third region's result at (p, q), over any names a, d, b for the three arrays the region finds. -/
theorem region2_value_of (a : S50000x128.Idx → EReal) (d : S50000x1.Idx → EReal) (b : S1x128.Idx → EReal)
    (ha : V c main_v41 = a) (hd : V c main_v42 = d) (hb : V c main_v43 = b) (p : Fin 50000) (q : Fin 128) :
    ((Gen.dat2 (F := Ideal) V c).arrAt 3 cfg2.N : S50000x128.Idx → EReal) (ix2 p q)
      = a (ix2 p q) * d (ix2 p 0) + b (ix2 0 q) := by
  subst ha hd hb
  rw [final2 V c]
  rfl

end Cert.KernelIdeal.RegionValue

end
-- ==== Proof.KerRegions.lean ====
/-
  The three regions' result arrays, each as one function of the arrays its region finds: the feature product with
  scaled rows, the rectified hidden layer's product with scaled rows, and the scaled rows plus the bias row.
-/
import proofs.«162929_j661424964180_2_alg».proof.Proof.KerRegion0
import proofs.«162929_j661424964180_2_alg».proof.Proof.KerRegion1
import proofs.«162929_j661424964180_2_alg».proof.Proof.KerRegion2
-- ==== Proof.LibRowGather.lean ====
/-
  Gathering rows of a table. For a table `x : [N, C]` and a column of start indices `idx : [R, 1]`, the
  gather with one collapsed row axis and one offset axis of full width `C` returns, at result entry
  `(r, k)`, the table's entry `(ρ, k)`, where the row `ρ` is the start index `idx[r, 0]` read as a signed
  integer and clamped into `[0, N − 1]`. The column coordinate passes through unchanged: the offset axis has
  start `0` and the slice is the whole row.
-/
import Idealize.ShloMosaic.Lib.ValueIdx

noncomputable section

namespace Cert.Lib.RowGather

open Idealize.ShloMosaic Idealize.ShloMosaic.ValueIdx

variable {α : Type}

/-- The dimension numbers of a row gather: result axis 1 is the offset axis, table axis 0 is collapsed and is
    the axis the start index addresses, the index vector lies along axis 1 of the start indices, and a slice is
    one row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- A row gather read at `(r, k)`: the table at the selected row and the same column. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (rowOf N hN (idx (ix2 r 0))) k) := by
  -- the two coordinates of the table index the gather reads, one axis at a time
  have hb : ∀ a, (rowDims N R C wf).batchCoord (ix2 r k) a = 0 := fun a =>
    GatherDims.batchCoord_eq_zero _ _ _ List.not_mem_nil
  have h0 : (rowDims N R C wf).start (ix2 r k) idx (0 : Fin 2) + (rowDims N R C wf).batchCoord (ix2 r k) (0 : Fin 2)
      + (rowDims N R C wf).offCoord (ix2 r k) (0 : Fin 2) = (rowOf N hN (idx (ix2 r 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N R C wf).start (ix2 r k) idx (1 : Fin 2) + (rowDims N R C wf).batchCoord (ix2 r k) (1 : Fin 2)
      + (rowDims N R C wf).offCoord (ix2 r k) (1 : Fin 2) = k.val := by
    have ne10 : ¬((1 : Fin 2) = 0) := by decide
    have hn : (1 : Fin 2) ∉ (rowDims N R C wf).startIndexMap := fun h =>
      ne10 (List.mem_singleton.mp h)
    have hk : (1 : Fin 2) ∈ (rowDims N R C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext a
  refine Fin.ext ?_
  match a with
  | ⟨0, _⟩ => exact h0
  | ⟨1, _⟩ => exact h1

end Cert.Lib.RowGather

end
-- ==== Proof.LibRowScatter.lean ====
/-
  Adding rows into a table at a column of start indices. For a table `x : [N, C]`, start indices `idx : [R, 1]` and
  updates `u : [R, C]`, the scatter with one inserted row axis and one window axis of width `C` sends update entry
  `(r, k)` to table entry `(ρ, k)`, where the row `ρ` is the start index `idx[r, 0]` read as a signed integer and NOT
  clamped: when that integer is outside `[0, N − 1]` the update is dropped. The column coordinate passes through.
  So if update `(r, k)` lands on table entry `(p, q)`, then `idx[r, 0]` is `p` and `k = q`.
-/
import Idealize.ShloMosaic.Lib.ValueIdx

noncomputable section

namespace Cert.Lib.RowScatter

open Idealize.ShloMosaic Idealize.ShloMosaic.ValueIdx

/-- The dimension numbers of a row scatter: update axis 1 is the window axis, table axis 0 is inserted and is the
    axis the start index addresses, the index vector lies along axis 1 of the start indices. -/
abbrev rowScat (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window starts, on the row axis, at the start index of the update's row, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) :
    (rowScat N R C wf).start (ix2 r k) idx (0 : Fin 2) = (idx (ix2 r 0)).toInt := by
  unfold ScatterDims.start
  rw [dif_pos (show (0 : Fin 2) ∈ (rowScat N R C wf).scatterDimsToOperandDims from List.mem_singleton.mpr rfl)]
  have hsi : (rowScat N R C wf).siIdx (ix2 r k) ⟨List.idxOf (0 : Fin 2) (rowScat N R C wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis the window starts at `0`. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScat N R C wf).start j idx (1 : Fin 2) = 0 := by
  unfold ScatterDims.start
  rw [dif_neg (fun h => absurd (List.mem_singleton.mp h) (show ¬((1 : Fin 2) = 0) by decide))]

/-- The window coordinate is `0` on the (inserted) row axis … -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowScat N R C wf).window j (0 : Fin 2) = 0 := by
  unfold ScatterDims.window
  rw [dif_neg (show ¬((0 : Fin 2) ∈ (rowScat N R C wf).sKept) from fun h => by have := (List.mem_filter.mp h).2; simp at this)]

/-- … and the update's column on the column axis. -/
theorem window_col {N R C : Nat} (wf : ScatterDims.WF ⟨2, ![N, C]⟩ ⟨2, ![R, 1]⟩ ⟨2, ![R, C]⟩ [1] [0] [0] 1)
    (r : Fin R) (k : Fin C) : (rowScat N R C wf).window (ix2 r k) (1 : Fin 2) = k.val := by
  unfold ScatterDims.window
  rw [dif_pos (show (1 : Fin 2) ∈ (rowScat N R C wf).sKept from List.mem_filter.mpr ⟨List.mem_finRange _, by simp⟩)]
  rfl

/-- If update entry `(r, k)` lands on table entry `(p, q)`, its row's start index is `p` and `k = q`. -/
theorem lands {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C)
    (h : (rowScat N R C wf).resultIdx? (ix2 r k) idx = some (ix2 p q)) :
    (idx (ix2 r 0)).toInt = (p.val : Int) ∧ k = q := by
  unfold ScatterDims.resultIdx? at h
  split at h
  · rename_i hb
    have h' := Option.some.inj h
    have e0 : ((rowScat N R C wf).start (ix2 r k) idx (0 : Fin 2) + ((rowScat N R C wf).window (ix2 r k) (0 : Fin 2) : Int)).toNat = p.val :=
      congrArg Fin.val (congrFun h' (0 : Fin 2))
    have e1 : ((rowScat N R C wf).start (ix2 r k) idx (1 : Fin 2) + ((rowScat N R C wf).window (ix2 r k) (1 : Fin 2) : Int)).toNat = q.val :=
      congrArg Fin.val (congrFun h' (1 : Fin 2))
    have b0 := (hb (0 : Fin 2)).1
    rw [start_row, window_row] at e0 b0
    rw [start_col, window_col] at e1
    refine ⟨by omega, Fin.ext (by omega)⟩
  · exact absurd h (by simp)

end Cert.Lib.RowScatter

end
-- ==== Proof.LibRowScatterSum.lean ====
/-
  Adding rows into a table at a column of start indices, read at an index as a sum over rows.

  For a table `z : [N, C]`, start indices `idx : [R, 1]` and updates `u : [R, C]`, the accumulating scatter with one
  inserted row axis and one window axis of width `C` gives, at table entry `(p, q)` on the extended reals,
  `z[p, q] + ∑ r ∈ landing idx p, u[r, q]`, where `landing idx p` is the set of update rows whose start index, read
  as a signed integer, is exactly `p` (an out-of-range start drops its row). The set of rows does not depend on the
  width `C`: scatters of different widths by the same column of start indices add over the same rows.
-/
import Idealize.ShloMosaic.Lib.ValueIdx
import Idealize.ShloMosaic.PureOps.Ideal
import proofs.«162929_j661424964180_2_alg».proof.Proof.LibRowScatter

noncomputable section

namespace Cert.Lib.RowScatterSum

open Idealize.ShloMosaic Idealize.ShloMosaic.ValueIdx Cert.Lib.RowScatter

/-- The update rows that land on table row `p`: those whose start index, read signed, is `p`. -/
def landing {R w : Nat} (N : Nat) (idx : IVec ⟨2, ![R, 1]⟩ w) (p : Fin N) : Finset (Fin R) :=
  Finset.univ.filter (fun r => (idx (ix2 r 0)).toInt = (p.val : Int))

/-- Update entry `(r, k)` lands on table entry `(p, q)` exactly when row `r`'s start index is `p` and `k = q`. -/
theorem lands_iff {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C) :
    (rowScat N R C wf).resultIdx? (ix2 r k) idx = some (ix2 p q) ↔ ((idx (ix2 r 0)).toInt = (p.val : Int) ∧ k = q) := by
  constructor
  · exact lands wf idx r k p q
  · rintro ⟨h0, rfl⟩
    have hp := p.isLt
    have hk := k.isLt
    have hb : ∀ a : Fin 2, 0 ≤ (rowScat N R C wf).start (ix2 r k) idx a + ((rowScat N R C wf).window (ix2 r k) a : Int)
        ∧ (rowScat N R C wf).start (ix2 r k) idx a + ((rowScat N R C wf).window (ix2 r k) a : Int) < ((⟨2, ![N, C]⟩ : Shape).size a : Int) := by
      refine Fin.forall_fin_two.mpr ⟨?_, ?_⟩
      · rw [start_row, window_row]
        show 0 ≤ (idx (ix2 r 0)).toInt + ((0 : Nat) : Int) ∧ (idx (ix2 r 0)).toInt + ((0 : Nat) : Int) < (N : Int)
        omega
      · rw [start_col, window_col]
        show 0 ≤ (0 : Int) + (k.val : Int) ∧ (0 : Int) + (k.val : Int) < (C : Int)
        omega
    unfold ScatterDims.resultIdx?
    rw [dif_pos hb]
    refine congrArg some (funext fun a => Fin.ext ?_)
    revert a
    refine Fin.forall_fin_two.mpr ⟨?_, ?_⟩
    · show ((rowScat N R C wf).start (ix2 r k) idx (0 : Fin 2) + ((rowScat N R C wf).window (ix2 r k) (0 : Fin 2) : Int)).toNat = p.val
      rw [start_row, window_row]
      omega
    · show ((rowScat N R C wf).start (ix2 r k) idx (1 : Fin 2) + ((rowScat N R C wf).window (ix2 r k) (1 : Fin 2) : Int)).toNat = k.val
      rw [start_col, window_col]
      omega

/-- The accumulating row scatter at `(p, q)`: the table's entry plus the updates' column `q` summed over the rows
    that land on `p`. -/
theorem scatterAdd_rows_apply {N R C w : Nat} {φ : FTy}
    (d : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hd : d = rowScat N R C wf)
    (z : FVec Ideal ⟨2, ![N, C]⟩ φ) (idx : IVec ⟨2, ![R, 1]⟩ w) (u : FVec Ideal ⟨2, ![R, C]⟩ φ) (p : Fin N) (q : Fin C) :
    Host.scatterAdd d z idx u (ix2 p q) = (z (ix2 p q) : EReal) + ∑ r ∈ landing N idx p, (u (ix2 r q) : EReal) := by
  subst hd
  show Ideal.hostScatterAdd (rowScat N R C wf) z idx u (ix2 p q) = _
  unfold Ideal.hostScatterAdd landing
  congr 1
  rw [Finset.sum_filter, sum_idx2, Finset.sum_filter]
  refine Finset.sum_congr rfl fun r _ => ?_
  by_cases h : (idx (ix2 r 0)).toInt = (p.val : Int)
  · rw [if_pos h]
    rw [Finset.sum_eq_single q]
    · rw [if_pos ((lands_iff wf idx r q p q).mpr ⟨h, rfl⟩)]
    · intro k _ hk
      rw [if_neg (fun hl => hk ((lands_iff wf idx r k p q).mp hl).2)]
    · intro hq
      exact absurd (Finset.mem_univ q) hq
  · rw [if_neg h]
    refine Finset.sum_eq_zero fun k _ => ?_
    rw [if_neg (fun hl => h ((lands_iff wf idx r k p q).mp hl).1)]

end Cert.Lib.RowScatterSum

end
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.GcnLaw.lean ====
/-
  A two-layer graph convolution with symmetric degree normalisation, as two arrangements of the same sums.

  Nodes `ν`, edges `ε` (self-loops included). Edge `e` reads node `g e` and adds into the node it lands on: `L n` is
  the set of edges landing on `n`, and `gd e` is the node whose degree weight edge `e` uses on the landing side, with
  `gd e = n` whenever `e ∈ L n`. With `d n` the weight of node `n` (the inverse square root of its degree), a layer is

      out[n, k] = ∑_{e ∈ L n} h[g e, k] · (d (g e) · d (gd e)) + b[k],      h = x · W.

  One arrangement weights every edge message by the product `d (g e) · d (gd e)` (`refHidden`, `refOut`). The other
  scales the rows of `h` by `d` once before the edges read them and scales the aggregated rows by `d` once after
  (`kerPre1`, `kerHidden`, `kerPre2`, `kerOut`). For real data the two agree: on the landing set the second factor
  is the constant `d n`, and a constant factor moves across a finite sum of reals (`layer`). At the infinities of the
  extended reals that step fails, so every array is assumed real.
-/
import Idealize.ShloMosaic.Lib.ValueIdx
import Idealize.ShloMosaic.PureOps.Ideal
import proofs.«162929_j661424964180_2_alg».proof.Proof.LibRowGather
import proofs.«162929_j661424964180_2_alg».proof.Proof.LibRowScatterSum
import proofs.«162929_j661424964180_2_alg».proof.Proof.LibAggLinear

noncomputable section

namespace Cert.Gcn

open Idealize.ShloMosaic Idealize.ShloMosaic.ValueIdx Cert.Lib.RowGather Cert.Lib.RowScatterSum Cert.Lib.AggLinear

section Law

variable {ν ε κ₀ κ₁ κ₂ : Type} [Fintype κ₀] [Fintype κ₁] [Fintype κ₂]
variable (L : ν → Finset ε) (g gd : ε → ν) (d : ν → EReal) (x : ν → κ₀ → EReal) (W1 : κ₀ → κ₁ → EReal)
  (b1 : κ₁ → EReal) (W2 : κ₁ → κ₂ → EReal) (b2 : κ₂ → EReal)

/-- The first projection with its rows scaled by the node weights. -/
def kerPre1 (n : ν) (k : κ₁) : EReal := (∑ j, x n j * W1 j k) * d n
/-- The hidden layer, rows scaled after aggregation: `relu ((∑_{e ∈ L n} pre1[g e, k]) · d n + b1 k)`. -/
def kerHidden (n : ν) (k : κ₁) : EReal := max (((0 : EReal) + ∑ e ∈ L n, kerPre1 d x W1 (g e) k) * d n + b1 k) 0
/-- The second projection of the hidden layer with its rows scaled by the node weights. -/
def kerPre2 (n : ν) (q : κ₂) : EReal := (∑ k, kerHidden L g d x W1 b1 n k * W2 k q) * d n
/-- The output, rows scaled after aggregation. -/
def kerOut (p : ν) (q : κ₂) : EReal := ((0 : EReal) + ∑ e ∈ L p, kerPre2 L g d x W1 b1 W2 (g e) q) * d p + b2 q

/-- The hidden layer with every edge message weighted by `d (g e) · d (gd e)`. -/
def refHidden (n : ν) (k : κ₁) : EReal :=
  max (((0 : EReal) + ∑ e ∈ L n, (∑ j, x (g e) j * W1 j k) * (d (g e) * d (gd e))) + b1 k) 0
/-- The output with every edge message weighted by `d (g e) · d (gd e)`. -/
def refOut (p : ν) (q : κ₂) : EReal :=
  ((0 : EReal) + ∑ e ∈ L p, (∑ k, refHidden L g gd d x W1 b1 (g e) k * W2 k q) * (d (g e) * d (gd e))) + b2 q

/-- A real factor common to every term moves across a finite sum of reals. -/
theorem layer (S : Finset ε) (a w : ε → EReal) (t : EReal) (ha : ∀ e, IsReal (a e)) (hw : ∀ e, IsReal (w e))
    (ht : IsReal t) : ((0 : EReal) + ∑ e ∈ S, a e * w e) * t = (0 : EReal) + ∑ e ∈ S, a e * (w e * t) := by
  choose a' ha' using ha
  choose w' hw' using hw
  obtain ⟨t', rfl⟩ := ht
  have key : ((0 : ℝ) + ∑ e ∈ S, a' e * w' e) * t' = (0 : ℝ) + ∑ e ∈ S, a' e * (w' e * t') := by
    rw [zero_add, zero_add, Finset.sum_mul]
    exact Finset.sum_congr rfl fun e _ => by ring
  have e := congrArg (fun r : ℝ => (r : EReal)) key
  simp only [EReal.coe_add, EReal.coe_mul, coe_sum, EReal.coe_zero] at e
  simpa only [ha', hw'] using e

variable {L g gd d x W1 b1 W2 b2}

theorem isReal_dot {κ : Type} [Fintype κ] (u v : κ → EReal) (hu : ∀ k, IsReal (u k)) (hv : ∀ k, IsReal (v k)) :
    IsReal (∑ k, u k * v k) := IsReal.sum _ _ fun k _ => (hu k).mul (hv k)

/-- The two arrangements of the hidden layer agree on real data. -/
theorem hidden_eq (hgd : ∀ n e, e ∈ L n → gd e = n) (hd : ∀ n, IsReal (d n)) (hx : ∀ n j, IsReal (x n j))
    (hW1 : ∀ j k, IsReal (W1 j k)) (n : ν) (k : κ₁) :
    kerHidden L g d x W1 b1 n k = refHidden L g gd d x W1 b1 n k := by
  unfold kerHidden refHidden kerPre1
  rw [layer (L n) (fun e => ∑ j, x (g e) j * W1 j k) (fun e => d (g e)) (d n)
    (fun e => isReal_dot _ _ (fun j => hx _ j) (fun j => hW1 j k)) (fun e => hd _) (hd n)]
  refine congrArg (fun s => max (((0 : EReal) + s) + b1 k) 0) (Finset.sum_congr rfl fun e he => ?_)
  rw [hgd n e he]

/-- The hidden layer is real on real data. -/
theorem isReal_refHidden (hd : ∀ n, IsReal (d n)) (hx : ∀ n j, IsReal (x n j)) (hW1 : ∀ j k, IsReal (W1 j k))
    (hb1 : ∀ k, IsReal (b1 k)) (n : ν) (k : κ₁) : IsReal (refHidden L g gd d x W1 b1 n k) := by
  unfold refHidden
  refine IsReal.max (((isReal_zero).add (IsReal.sum _ _ fun e _ => ?_)).add (hb1 k)) isReal_zero
  exact (isReal_dot _ _ (fun j => hx _ j) (fun j => hW1 j k)).mul ((hd _).mul (hd _))

/-- The two arrangements of the whole network agree on real data. -/
theorem out_eq (hgd : ∀ n e, e ∈ L n → gd e = n) (hd : ∀ n, IsReal (d n)) (hx : ∀ n j, IsReal (x n j))
    (hW1 : ∀ j k, IsReal (W1 j k)) (hb1 : ∀ k, IsReal (b1 k)) (hW2 : ∀ k q, IsReal (W2 k q)) (p : ν) (q : κ₂) :
    kerOut L g d x W1 b1 W2 b2 p q = refOut L g gd d x W1 b1 W2 b2 p q := by
  unfold kerOut refOut kerPre2
  simp only [hidden_eq hgd hd hx hW1]
  rw [layer (L p) (fun e => ∑ k, refHidden L g gd d x W1 b1 (g e) k * W2 k q) (fun e => d (g e)) (d p)
    (fun e => isReal_dot _ _ (fun k => isReal_refHidden hd hx hW1 hb1 _ k) (fun k => hW2 k q)) (fun e => hd _) (hd p)]
  refine congrArg (fun s => ((0 : EReal) + s) + b2 q) (Finset.sum_congr rfl fun e he => ?_)
  rw [hgd p e he]

end Law

/-! ## The network over the arrays' literal shapes -/

section Arrays

variable (X : (⟨2, ![50000, 256]⟩ : Shape).Idx → EReal) (W1 : (⟨2, ![256, 256]⟩ : Shape).Idx → EReal)
  (B1 : (⟨1, ![256]⟩ : Shape).Idx → EReal) (W2 : (⟨2, ![256, 128]⟩ : Shape).Idx → EReal)
  (B2 : (⟨1, ![128]⟩ : Shape).Idx → EReal) (D : (⟨1, ![50000]⟩ : Shape).Idx → EReal)
  (srcCol dstGatherCol dstCol : IVec ⟨2, ![850000, 1]⟩ 32)

/-- The node an edge's start index selects in a gather over the 50000 nodes. -/
def nodeOf (col : IVec ⟨2, ![850000, 1]⟩ 32) (e : Fin 850000) : Fin 50000 := rowOf 50000 (by decide) (col (ix2 e 0))

/-- The output with the rows scaled before and after each aggregation, at node `p` and channel `q`. -/
def arrKerOut (p : Fin 50000) (q : Fin 128) : EReal :=
  kerOut (fun n => landing 50000 dstCol n) (nodeOf srcCol) (fun n => D (ix1 n)) (fun n j => X (ix2 n j))
    (fun j k => W1 (ix2 j k)) (fun k => B1 (ix1 k)) (fun k q => W2 (ix2 k q)) (fun q => B2 (ix1 q)) p q

/-- The output with every edge message weighted by the product of the two node weights. -/
def arrRefOut (p : Fin 50000) (q : Fin 128) : EReal :=
  refOut (fun n => landing 50000 dstCol n) (nodeOf srcCol) (nodeOf dstGatherCol) (fun n => D (ix1 n))
    (fun n j => X (ix2 n j)) (fun j k => W1 (ix2 j k)) (fun k => B1 (ix1 k)) (fun k q => W2 (ix2 k q))
    (fun q => B2 (ix1 q)) p q

theorem arr_out_eq (hgd : ∀ (n : Fin 50000) (e : Fin 850000), e ∈ landing 50000 dstCol n → nodeOf dstGatherCol e = n)
    (hD : ∀ i, IsReal (D i)) (hX : ∀ i, IsReal (X i)) (hW1 : ∀ i, IsReal (W1 i)) (hB1 : ∀ i, IsReal (B1 i))
    (hW2 : ∀ i, IsReal (W2 i)) (p : Fin 50000) (q : Fin 128) :
    arrKerOut X W1 B1 W2 B2 D srcCol dstCol p q = arrRefOut X W1 B1 W2 B2 D srcCol dstGatherCol dstCol p q :=
  out_eq hgd (fun _ => hD _) (fun _ _ => hX _) (fun _ _ => hW1 _) (fun _ => hB1 _) (fun _ _ => hW2 _) p q

end Arrays

end Cert.Gcn

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.KerAgg.lean ====
/-
  The kernel program's host aggregation read at an index, on the extended reals.

  Between its regions the kernel program gathers the rows of a node table at the source column of the edge list and
  adds them into a zero table at the target column. Read at node `n` and channel `k` this is the sum, over the edges
  landing on `n`, of the table's entry at the node the edge's source index selects: the scatter is a sum over the
  landing rows, the gather reads the selected row, and the zero table contributes `0`.
-/
import proofs.«162929_j661424964180_2_alg».proof.Proof.Gen.KernelIdeal
import proofs.«162929_j661424964180_2_alg».proof.Proof.HostTerms
import proofs.«162929_j661424964180_2_alg».proof.Proof.GcnLaw
import proofs.«162929_j661424964180_2_alg».proof.Proof.LibRowScatterSum
import proofs.«162929_j661424964180_2_alg».proof.Proof.LibRowGather
import proofs.«162929_j661424964180_2_alg».proof.Proof.LibBcastChain
import Idealize.ShloMosaic.PureOps.Ideal.Laws

noncomputable section

namespace Cert.KernelIdeal.AggValue

open Cert.KernelIdeal Cert.KernelIdeal.Gen Idealize.ShloMosaic Idealize.ShloMosaic.ValueIdx Cert.Gcn.Terms
open Cert.Lib.RowGather Cert.Lib.RowScatter Cert.Lib.RowScatterSum Cert.Lib.BcastChain

/-- Gathering the rows of a `[50000, 256]` table at the source column and adding them into the zero table at the target
    column: at node `n` and channel `k`, the sum over the edges landing on `n` of the table's entry at the edge's source
    node. -/
theorem agg256_apply (T : FVec Ideal S50000x256 .f32) (s d : IVec S850000 32) (n : Fin 50000) (k : Fin 256) :
    (Host.scatterAdd scatter_S50000x256_S850000x1_S850000x256_1_0_0_1
        (broadcastInDim S50000x256 ![] bcast_S_S50000x256 (constant (F := Ideal) S_ .f32 0x00000000#32)) (plainCol d)
        (Host.gather gather_S50000x256_S850000x1_S850000x256_1_0_n_n_0_1_1256 T (wrapCol s)) : S50000x256.Idx → EReal) (ix2 n k)
      = (0 : EReal) + ∑ e' ∈ landing 50000 (plainCol d) n, (T : S50000x256.Idx → EReal) (ix2 (Cert.Gcn.nodeOf (wrapCol s) e') k) := by
  have hs : scatter_S50000x256_S850000x1_S850000x256_1_0_0_1
      = rowScat 50000 850000 256 scatter_S50000x256_S850000x1_S850000x256_1_0_0_1_wf := rfl
  have hg : gather_S50000x256_S850000x1_S850000x256_1_0_n_n_0_1_1256
      = rowDims 50000 850000 256 gather_S50000x256_S850000x1_S850000x256_1_0_n_n_0_1_1256_wf := rfl
  rw [scatterAdd_rows_apply _ _ hs, overAll_apply, constant_apply, Ideal.ofBits_zero_f32]
  refine congrArg (fun t => (0 : EReal) + t) (Finset.sum_congr rfl fun r _ => ?_)
  rw [hg, gather_rows_apply (by decide)]
  rfl

/-- Gathering the rows of a `[50000, 128]` table at the source column and adding them into the zero table at the target
    column: at node `n` and channel `k`, the sum over the edges landing on `n` of the table's entry at the edge's source
    node. -/
theorem agg128_apply (T : FVec Ideal S50000x128 .f32) (s d : IVec S850000 32) (n : Fin 50000) (k : Fin 128) :
    (Host.scatterAdd scatter_S50000x128_S850000x1_S850000x128_1_0_0_1
        (broadcastInDim S50000x128 ![] bcast_S_S50000x128 (constant (F := Ideal) S_ .f32 0x00000000#32)) (plainCol d)
        (Host.gather gather_S50000x128_S850000x1_S850000x128_1_0_n_n_0_1_1128 T (wrapCol s)) : S50000x128.Idx → EReal) (ix2 n k)
      = (0 : EReal) + ∑ e' ∈ landing 50000 (plainCol d) n, (T : S50000x128.Idx → EReal) (ix2 (Cert.Gcn.nodeOf (wrapCol s) e') k) := by
  have hs : scatter_S50000x128_S850000x1_S850000x128_1_0_0_1
      = rowScat 50000 850000 128 scatter_S50000x128_S850000x1_S850000x128_1_0_0_1_wf := rfl
  have hg : gather_S50000x128_S850000x1_S850000x128_1_0_n_n_0_1_1128
      = rowDims 50000 850000 128 gather_S50000x128_S850000x1_S850000x128_1_0_n_n_0_1_1128_wf := rfl
  rw [scatterAdd_rows_apply _ _ hs, overAll_apply, constant_apply, Ideal.ofBits_zero_f32]
  refine congrArg (fun t => (0 : EReal) + t) (Finset.sum_congr rfl fun r _ => ?_)
  rw [hg, gather_rows_apply (by decide)]
  rfl

end Cert.KernelIdeal.AggValue

end
-- ==== Proof.KerChainA.lean ====
/-
  The idealized kernel's buffers after each stretch of its run, read as the graph convolution's arrays (first half).

  From the launch memory the host operations build the source and target lists of the edges and the node weights; the
  first region multiplies the features by the first weight matrix and scales each row by its node weight; the host
  operations after it gather the source rows of that product and add them into the target rows. Each link below reads
  one buffer at one boundary of the run, from the link before it.
-/
import proofs.«162929_j661424964180_2_alg».proof.Proof.Gen.KernelIdeal.Frame
import proofs.«162929_j661424964180_2_alg».proof.Proof.KerHost
import proofs.«162929_j661424964180_2_alg».proof.Proof.KerRegions
import proofs.«162929_j661424964180_2_alg».proof.Proof.KerAgg
import proofs.«162929_j661424964180_2_alg».proof.Proof.GcnLaw
import proofs.«162929_j661424964180_2_alg».proof.Proof.HostTerms
import proofs.«162929_j661424964180_2_alg».proof.Proof.LibKeepdimsColumn
import Idealize.ShloMosaic.Lib.ValueIdx
import Idealize.ShloMosaic.Lib.ValueLayout

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Idealize.ShloMosaic.ValueIdx
open Cert.Gcn.Terms Cert.Lib.RowScatterSum
open Cert.KernelIdeal.HostValue Cert.KernelIdeal.RegionValue Cert.KernelIdeal.AggValue

variable (m : (ℓ : Loc nD τ sig) → Buf (Elt Ideal) ℓ) (ρ : Dev nD → PrngReg) (c : Dev nD)

/-- The edge index, the features, the two weight matrices and the two biases the kernel is launched with. -/
abbrev eA : IVec S2x800000 32 := m ((c : Thread nD τ).loc main_arg1)
abbrev xA : S50000x256.Idx → EReal := m ((c : Thread nD τ).loc main_arg0)
abbrev w1A : S256x256.Idx → EReal := m ((c : Thread nD τ).loc main_arg2)
abbrev b1A : S256.Idx → EReal := m ((c : Thread nD τ).loc main_arg3)
abbrev w2A : S256x128.Idx → EReal := m ((c : Thread nD τ).loc main_arg4)
abbrev b2A : S128.Idx → EReal := m ((c : Thread nD τ).loc main_arg5)

/-! ## After the first host stretch -/

theorem w1_v3 : (Gen.W1 m ρ c (Proc.devRef .tc main_v3) : S850000.Idx → BitVec 32) = srcVec (eA m c) :=
  s0_v3 (Gen.W0 m ρ c) _ rfl
theorem w1_v6 : (Gen.W1 m ρ c (Proc.devRef .tc main_v6) : S850000.Idx → BitVec 32) = dstVec (eA m c) :=
  s0_v6 (Gen.W0 m ρ c) _ rfl
theorem w1_v12 : (Gen.W1 m ρ c (Proc.devRef .tc main_v12) : S50000.Idx → BitVec 1)
    = cmpf (F := Ideal) .ogt (degVec (eA m c)) (broadcastInDim S50000 ![] bcast_S_S50000 (constant S_ .f32 0x00000000#32)) :=
  s0_v12 (Gen.W0 m ρ c) _ rfl
theorem w1_v13 : (Gen.W1 m ρ c (Proc.devRef .tc main_v13) : S50000.Idx → EReal) = Host.rsqrt (degVec (eA m c)) :=
  s0_v13 (Gen.W0 m ρ c) _ rfl
theorem w1_cst2 : (Gen.W1 m ρ c (Proc.devRef .tc main_cst_2) : S_.Idx → EReal) = constant (F := Ideal) S_ .f32 0x00000000#32 :=
  s0_cst2 (Gen.W0 m ρ c)
theorem w1_arg0 : (Gen.W1 m ρ c (Proc.devRef .tc main_arg0) : S50000x256.Idx → EReal) = (xA m c) := s0_arg0 (Gen.W0 m ρ c)
theorem w1_arg2 : (Gen.W1 m ρ c (Proc.devRef .tc main_arg2) : S256x256.Idx → EReal) = (w1A m c) := s0_arg2 (Gen.W0 m ρ c)
theorem w1_arg3 : (Gen.W1 m ρ c (Proc.devRef .tc main_arg3) : S256.Idx → EReal) = (b1A m c) := s0_arg3 (Gen.W0 m ρ c)
theorem w1_arg4 : (Gen.W1 m ρ c (Proc.devRef .tc main_arg4) : S256x128.Idx → EReal) = (w2A m c) := s0_arg4 (Gen.W0 m ρ c)
theorem w1_arg5 : (Gen.W1 m ρ c (Proc.devRef .tc main_arg5) : S128.Idx → EReal) = (b2A m c) := s0_arg5 (Gen.W0 m ρ c)

/-! ## After the node weights are selected -/

/-- The selection the kernel program makes is the node weight. -/
theorem dinv_def (e : IVec S2x800000 32) :
    select (cmpf (F := Ideal) .ogt (degVec e) (broadcastInDim S50000 ![] bcast_S_S50000 (constant S_ .f32 0x00000000#32)))
      (Host.rsqrt (degVec e)) (broadcastInDim S50000 ![] bcast_S_S50000 (id (constant (F := Ideal) S_ .f32 0x00000000#32)))
      = dinvVec e := by
  unfold dinvVec; rfl

theorem w2_v14 : (Gen.W2 m ρ c (Proc.devRef .tc main_v14) : S50000.Idx → EReal) = dinvVec (eA m c) :=
  (s01_v14 (Gen.W1 m ρ c) _ _ _ (w1_v12 m ρ c) (w1_v13 m ρ c) (w1_cst2 m ρ c)).trans (dinv_def _)
theorem w2_v3 : (Gen.W2 m ρ c (Proc.devRef .tc main_v3) : S850000.Idx → BitVec 32) = srcVec (eA m c) :=
  (s01_v3 (Gen.W1 m ρ c)).trans (w1_v3 m ρ c)
theorem w2_v6 : (Gen.W2 m ρ c (Proc.devRef .tc main_v6) : S850000.Idx → BitVec 32) = dstVec (eA m c) :=
  (s01_v6 (Gen.W1 m ρ c)).trans (w1_v6 m ρ c)
theorem w2_arg0 : (Gen.W2 m ρ c (Proc.devRef .tc main_arg0) : S50000x256.Idx → EReal) = (xA m c) :=
  (s01_arg0 (Gen.W1 m ρ c)).trans (w1_arg0 m ρ c)
theorem w2_arg2 : (Gen.W2 m ρ c (Proc.devRef .tc main_arg2) : S256x256.Idx → EReal) = (w1A m c) :=
  (s01_arg2 (Gen.W1 m ρ c)).trans (w1_arg2 m ρ c)
theorem w2_arg3 : (Gen.W2 m ρ c (Proc.devRef .tc main_arg3) : S256.Idx → EReal) = (b1A m c) :=
  (s01_arg3 (Gen.W1 m ρ c)).trans (w1_arg3 m ρ c)
theorem w2_arg4 : (Gen.W2 m ρ c (Proc.devRef .tc main_arg4) : S256x128.Idx → EReal) = (w2A m c) :=
  (s01_arg4 (Gen.W1 m ρ c)).trans (w1_arg4 m ρ c)
theorem w2_arg5 : (Gen.W2 m ρ c (Proc.devRef .tc main_arg5) : S128.Idx → EReal) = (b2A m c) :=
  (s01_arg5 (Gen.W1 m ρ c)).trans (w1_arg5 m ρ c)

/-! ## At the first region's entry -/

theorem w3_v15 : (Gen.W3 m ρ c (Proc.devRef .tc main_v15) : S256x256.Idx → EReal) = (w1A m c) :=
  (s02_v15 (Gen.W2 m ρ c)).trans (w2_arg2 m ρ c)
theorem w3_v16 : (Gen.W3 m ρ c (Proc.devRef .tc main_v16) : S256x128.Idx → EReal) = (w2A m c) :=
  (s02_v16 (Gen.W2 m ρ c)).trans (w2_arg4 m ρ c)
theorem w3_v17 : (Gen.W3 m ρ c (Proc.devRef .tc main_v17) : S50000x1.Idx → EReal)
    = shapeCast S50000x1 (dinvVec (eA m c)) shapeCasts_S50000_S50000x1 :=
  (s02_v17 (Gen.W2 m ρ c)).trans (congrArg (fun x => shapeCast S50000x1 x shapeCasts_S50000_S50000x1) (w2_v14 m ρ c))
theorem w3_v3 : (Gen.W3 m ρ c (Proc.devRef .tc main_v3) : S850000.Idx → BitVec 32) = srcVec (eA m c) :=
  (s02_v3 (Gen.W2 m ρ c)).trans (w2_v3 m ρ c)
theorem w3_v6 : (Gen.W3 m ρ c (Proc.devRef .tc main_v6) : S850000.Idx → BitVec 32) = dstVec (eA m c) :=
  (s02_v6 (Gen.W2 m ρ c)).trans (w2_v6 m ρ c)
theorem w3_v14 : (Gen.W3 m ρ c (Proc.devRef .tc main_v14) : S50000.Idx → EReal) = dinvVec (eA m c) :=
  (s02_v14 (Gen.W2 m ρ c)).trans (w2_v14 m ρ c)
theorem w3_arg0 : (Gen.W3 m ρ c (Proc.devRef .tc main_arg0) : S50000x256.Idx → EReal) = (xA m c) :=
  (s02_arg0 (Gen.W2 m ρ c)).trans (w2_arg0 m ρ c)
theorem w3_arg3 : (Gen.W3 m ρ c (Proc.devRef .tc main_arg3) : S256.Idx → EReal) = (b1A m c) :=
  (s02_arg3 (Gen.W2 m ρ c)).trans (w2_arg3 m ρ c)
theorem w3_arg5 : (Gen.W3 m ρ c (Proc.devRef .tc main_arg5) : S128.Idx → EReal) = (b2A m c) :=
  (s02_arg5 (Gen.W2 m ρ c)).trans (w2_arg5 m ρ c)

/-! ## At the first region's exit -/

/-- The first region's result array is what its pipeline leaves. -/
theorem w4_v18_arr : (Gen.W4 m ρ c (Proc.devRef .tc main_v18) : S50000x256.Idx → EReal)
    = ((Gen.dat0 (F := Ideal) (Gen.V3 m ρ) c).arrAt 3 cfg0.N : S50000x256.Idx → EReal) := Gen.W4_arr m ρ c 3

/-- The first region's result: the features times the first weights, each row scaled by its node weight. -/
theorem w4_v18 (n : Fin 50000) (k : Fin 256) :
    (Gen.W4 m ρ c (Proc.devRef .tc main_v18) : S50000x256.Idx → EReal) (ix2 n k)
      = Cert.Gcn.kerPre1 (fun n : Fin 50000 => dinvVec (eA m c) (ix1 n)) (fun (n : Fin 50000) (j : Fin 256) => (xA m c) (ix2 n j))
          (fun (j k : Fin 256) => (w1A m c) (ix2 j k)) n k := by
  refine (congrFun (w4_v18_arr m ρ c) (ix2 n k)).trans ?_
  refine (region0_value_of (Gen.V3 m ρ) c _ _ _ (w3_arg0 m ρ c) (w3_v15 m ρ c) (w3_v17 m ρ c) n k).trans ?_
  rw [Cert.Gcn.Lib.shapeCast_a_a1_apply]
  rfl

theorem w4_v3 : (Gen.W4 m ρ c (Proc.devRef .tc main_v3) : S850000.Idx → BitVec 32) = srcVec (eA m c) :=
  (Gen.W4_of_ne m ρ c main_v3 (by decide)).trans (w3_v3 m ρ c)
theorem w4_v6 : (Gen.W4 m ρ c (Proc.devRef .tc main_v6) : S850000.Idx → BitVec 32) = dstVec (eA m c) :=
  (Gen.W4_of_ne m ρ c main_v6 (by decide)).trans (w3_v6 m ρ c)
theorem w4_v14 : (Gen.W4 m ρ c (Proc.devRef .tc main_v14) : S50000.Idx → EReal) = dinvVec (eA m c) :=
  (Gen.W4_of_ne m ρ c main_v14 (by decide)).trans (w3_v14 m ρ c)
theorem w4_v16 : (Gen.W4 m ρ c (Proc.devRef .tc main_v16) : S256x128.Idx → EReal) = (w2A m c) :=
  (Gen.W4_of_ne m ρ c main_v16 (by decide)).trans (w3_v16 m ρ c)
theorem w4_arg3 : (Gen.W4 m ρ c (Proc.devRef .tc main_arg3) : S256.Idx → EReal) = (b1A m c) :=
  (Gen.W4_of_ne m ρ c main_arg3 (by decide)).trans (w3_arg3 m ρ c)
theorem w4_arg5 : (Gen.W4 m ρ c (Proc.devRef .tc main_arg5) : S128.Idx → EReal) = (b2A m c) :=
  (Gen.W4_of_ne m ρ c main_arg5 (by decide)).trans (w3_arg5 m ρ c)

/-! ## At the second region's entry -/

/-- The first aggregation: at node n, the sum over the edges landing on n of the scaled product's row at the edge's source. -/
theorem w5_v28 (n : Fin 50000) (k : Fin 256) :
    (Gen.W5 m ρ c (Proc.devRef .tc main_v28) : S50000x256.Idx → EReal) (ix2 n k)
      = (0 : EReal) + ∑ e' ∈ landing 50000 (plainCol (dstVec (eA m c))) n,
          Cert.Gcn.kerPre1 (fun n : Fin 50000 => dinvVec (eA m c) (ix1 n)) (fun (n : Fin 50000) (j : Fin 256) => (xA m c) (ix2 n j))
            (fun (j k : Fin 256) => (w1A m c) (ix2 j k)) (Cert.Gcn.nodeOf (wrapCol (srcVec (eA m c))) e') k := by
  have h := s1_v28 (Gen.W4 m ρ c) (srcVec (eA m c)) (dstVec (eA m c)) _ (w4_v3 m ρ c) (w4_v6 m ρ c) rfl
  refine (congrFun h (ix2 n k)).trans ((agg256_apply _ _ _ n k).trans ?_)
  exact congrArg (fun t => (0 : EReal) + t) (Finset.sum_congr rfl fun e' _ => w4_v18 m ρ c _ k)

theorem w5_v29 : (Gen.W5 m ρ c (Proc.devRef .tc main_v29) : S50000x1.Idx → EReal)
    = shapeCast S50000x1 (dinvVec (eA m c)) shapeCasts_S50000_S50000x1 :=
  (s1_v29 (Gen.W4 m ρ c)).trans (congrArg (fun x => shapeCast S50000x1 x shapeCasts_S50000_S50000x1) (w4_v14 m ρ c))
theorem w5_v30 : (Gen.W5 m ρ c (Proc.devRef .tc main_v30) : S1x256.Idx → EReal)
    = shapeCast S1x256 (b1A m c) shapeCasts_S256_S1x256 :=
  (s1_v30 (Gen.W4 m ρ c)).trans (congrArg (fun x => shapeCast S1x256 x shapeCasts_S256_S1x256) (w4_arg3 m ρ c))
theorem w5_v16 : (Gen.W5 m ρ c (Proc.devRef .tc main_v16) : S256x128.Idx → EReal) = (w2A m c) :=
  (s1_v16 (Gen.W4 m ρ c)).trans (w4_v16 m ρ c)
theorem w5_v3 : (Gen.W5 m ρ c (Proc.devRef .tc main_v3) : S850000.Idx → BitVec 32) = srcVec (eA m c) :=
  (s1_v3 (Gen.W4 m ρ c)).trans (w4_v3 m ρ c)
theorem w5_v6 : (Gen.W5 m ρ c (Proc.devRef .tc main_v6) : S850000.Idx → BitVec 32) = dstVec (eA m c) :=
  (s1_v6 (Gen.W4 m ρ c)).trans (w4_v6 m ρ c)
theorem w5_v14 : (Gen.W5 m ρ c (Proc.devRef .tc main_v14) : S50000.Idx → EReal) = dinvVec (eA m c) :=
  (s1_v14 (Gen.W4 m ρ c)).trans (w4_v14 m ρ c)
theorem w5_arg5 : (Gen.W5 m ρ c (Proc.devRef .tc main_arg5) : S128.Idx → EReal) = (b2A m c) :=
  (s1_arg5 (Gen.W4 m ρ c)).trans (w4_arg5 m ρ c)

end Cert.KernelIdeal.ResultValue

end
-- ==== Proof.KerChainB.lean ====
/-
  The idealized kernel's buffers after each stretch of its run, read as the graph convolution's arrays (second half).

  The second region adds the first bias to the aggregated rows scaled by the node weights, rectifies, multiplies by the
  second weight matrix and scales each row by its node weight; the host operations after it gather the source rows of
  that product and add them into the target rows; the third region scales the aggregated rows by the node weights and
  adds the second bias. The result buffer is the graph convolution with the rows scaled before and after each
  aggregation.
-/
import proofs.«162929_j661424964180_2_alg».proof.Proof.KerChainA

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Idealize.ShloMosaic.ValueIdx
open Cert.Gcn.Terms Cert.Lib.RowScatterSum
open Cert.KernelIdeal.HostValue Cert.KernelIdeal.RegionValue Cert.KernelIdeal.AggValue

variable (m : (ℓ : Loc nD τ sig) → Buf (Elt Ideal) ℓ) (ρ : Dev nD → PrngReg) (c : Dev nD)

/-- The graph convolution's data by coordinates: the node weights, the features, the weights and the biases; the edges
    landing on a node and the source node of an edge. -/
abbrev dK : Fin 50000 → EReal := fun n => dinvVec (eA m c) (ix1 n)
abbrev xK : Fin 50000 → Fin 256 → EReal := fun n j => xA m c (ix2 n j)
abbrev w1K : Fin 256 → Fin 256 → EReal := fun j k => w1A m c (ix2 j k)
abbrev b1K : Fin 256 → EReal := fun k => b1A m c (ix1 k)
abbrev w2K : Fin 256 → Fin 128 → EReal := fun k q => w2A m c (ix2 k q)
abbrev b2K : Fin 128 → EReal := fun q => b2A m c (ix1 q)
abbrev LK : Fin 50000 → Finset (Fin 850000) := fun n => landing 50000 (plainCol (dstVec (eA m c))) n
abbrev gK : Fin 850000 → Fin 50000 := Cert.Gcn.nodeOf (wrapCol (srcVec (eA m c)))

/-! ## At the second region's exit -/

/-- The second region's result array is what its pipeline leaves. -/
theorem w6_v31_arr : (Gen.W6 m ρ c (Proc.devRef .tc main_v31) : S50000x128.Idx → EReal)
    = ((Gen.dat1 (F := Ideal) (Gen.V5 m ρ) c).arrAt 4 cfg1.N : S50000x128.Idx → EReal) := Gen.W6_arr m ρ c 4

/-- The second region's result: the rectified hidden layer times the second weights, each row scaled by its node weight. -/
theorem w6_v31 (n : Fin 50000) (q : Fin 128) :
    (Gen.W6 m ρ c (Proc.devRef .tc main_v31) : S50000x128.Idx → EReal) (ix2 n q)
      = Cert.Gcn.kerPre2 (LK m c) (gK m c) (dK m c) (xK m c) (w1K m c) (b1K m c) (w2K m c) n q := by
  refine (congrFun (w6_v31_arr m ρ c) (ix2 n q)).trans ?_
  refine (region1_value_of (Gen.V5 m ρ) c (Gen.W5 m ρ c (Proc.devRef .tc main_v28)) _ _ _ rfl (w5_v29 m ρ c) (w5_v30 m ρ c)
    (w5_v16 m ρ c) n q).trans ?_
  rw [Cert.Gcn.Lib.shapeCast_a_a1_apply]
  unfold Cert.Gcn.kerPre2 Cert.Gcn.kerHidden
  refine congrArg (fun s => s * dinvVec (eA m c) (ix1 n)) (Finset.sum_congr rfl fun k _ => ?_)
  rw [w5_v28 m ρ c n k, shapeCast_a_1a_apply]

theorem w6_v3 : (Gen.W6 m ρ c (Proc.devRef .tc main_v3) : S850000.Idx → BitVec 32) = srcVec (eA m c) :=
  (Gen.W6_of_ne m ρ c main_v3 (by decide)).trans (w5_v3 m ρ c)
theorem w6_v6 : (Gen.W6 m ρ c (Proc.devRef .tc main_v6) : S850000.Idx → BitVec 32) = dstVec (eA m c) :=
  (Gen.W6_of_ne m ρ c main_v6 (by decide)).trans (w5_v6 m ρ c)
theorem w6_v14 : (Gen.W6 m ρ c (Proc.devRef .tc main_v14) : S50000.Idx → EReal) = dinvVec (eA m c) :=
  (Gen.W6_of_ne m ρ c main_v14 (by decide)).trans (w5_v14 m ρ c)
theorem w6_arg5 : (Gen.W6 m ρ c (Proc.devRef .tc main_arg5) : S128.Idx → EReal) = b2A m c :=
  (Gen.W6_of_ne m ρ c main_arg5 (by decide)).trans (w5_arg5 m ρ c)

/-! ## At the third region's entry -/

/-- The second aggregation: at node n, the sum over the edges landing on n of the scaled product's row at the edge's source. -/
theorem w7_v41 (n : Fin 50000) (q : Fin 128) :
    (Gen.W7 m ρ c (Proc.devRef .tc main_v41) : S50000x128.Idx → EReal) (ix2 n q)
      = (0 : EReal) + ∑ e' ∈ LK m c n,
          Cert.Gcn.kerPre2 (LK m c) (gK m c) (dK m c) (xK m c) (w1K m c) (b1K m c) (w2K m c) (gK m c e') q := by
  have h := s2_v41 (Gen.W6 m ρ c) (srcVec (eA m c)) (dstVec (eA m c)) _ (w6_v3 m ρ c) (w6_v6 m ρ c) rfl
  refine (congrFun h (ix2 n q)).trans ((agg128_apply _ _ _ n q).trans ?_)
  exact congrArg (fun t => (0 : EReal) + t) (Finset.sum_congr rfl fun e' _ => w6_v31 m ρ c _ q)

theorem w7_v42 : (Gen.W7 m ρ c (Proc.devRef .tc main_v42) : S50000x1.Idx → EReal)
    = shapeCast S50000x1 (dinvVec (eA m c)) shapeCasts_S50000_S50000x1 :=
  (s2_v42 (Gen.W6 m ρ c)).trans (congrArg (fun x => shapeCast S50000x1 x shapeCasts_S50000_S50000x1) (w6_v14 m ρ c))
theorem w7_v43 : (Gen.W7 m ρ c (Proc.devRef .tc main_v43) : S1x128.Idx → EReal)
    = shapeCast S1x128 (b2A m c) shapeCasts_S128_S1x128 :=
  (s2_v43 (Gen.W6 m ρ c)).trans (congrArg (fun x => shapeCast S1x128 x shapeCasts_S128_S1x128) (w6_arg5 m ρ c))

/-! ## At the third region's exit -/

/-- The third region's result array is what its pipeline leaves. -/
theorem w8_v44_arr : (Gen.W8 m ρ c (Proc.devRef .tc main_v44) : S50000x128.Idx → EReal)
    = ((Gen.dat2 (F := Ideal) (Gen.V7 m ρ) c).arrAt 3 cfg2.N : S50000x128.Idx → EReal) := Gen.W8_arr m ρ c 3

/-- The result buffer: the aggregated rows scaled by the node weights, plus the second bias. -/
theorem w8_v44 (p : Fin 50000) (q : Fin 128) :
    (Gen.W8 m ρ c (Proc.devRef .tc main_v44) : S50000x128.Idx → EReal) (ix2 p q)
      = Cert.Gcn.kerOut (LK m c) (gK m c) (dK m c) (xK m c) (w1K m c) (b1K m c) (w2K m c) (b2K m c) p q := by
  refine (congrFun (w8_v44_arr m ρ c) (ix2 p q)).trans ?_
  refine (region2_value_of (Gen.V7 m ρ) c (Gen.W7 m ρ c (Proc.devRef .tc main_v41)) _ _ rfl (w7_v42 m ρ c) (w7_v43 m ρ c)
    p q).trans ?_
  rw [w7_v41 m ρ c p q, Cert.Gcn.Lib.shapeCast_a_a1_apply, shapeCast_a_1a_apply]
  rfl

end Cert.KernelIdeal.ResultValue

end
-- ==== Proof.KerValue.lean ====
/-
  The idealized kernel's result buffer after the run, read at an index: the two-layer graph convolution with the rows
  scaled by the node weights before and after each aggregation, over the arrays of the launch memory.
-/
import proofs.«162929_j661424964180_2_alg».proof.Proof.KerChainB

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Idealize.ShloMosaic.ValueIdx
open Cert.Gcn.Terms

/-! ## The result -/

/-- THE KERNEL'S RESULT: at node p and channel q, the graph convolution with the rows scaled before and after each
    aggregation, over the launch memory's arrays. -/
theorem result_apply (m : (ℓ : Loc nD τ sig) → Buf (Elt Ideal) ℓ) (ρ : Dev nD → PrngReg) (c : Dev nD) (p : Fin 50000) (q : Fin 128) :
    (Gen.W8 m ρ c (Proc.devRef .tc main_v44) : S50000x128.Idx → EReal) (ix2 p q)
      = Cert.Gcn.arrKerOut (m ((c : Thread nD τ).loc main_arg0)) (m ((c : Thread nD τ).loc main_arg2))
          (m ((c : Thread nD τ).loc main_arg3)) (m ((c : Thread nD τ).loc main_arg4)) (m ((c : Thread nD τ).loc main_arg5))
          (dinvVec (m ((c : Thread nD τ).loc main_arg1))) (wrapCol (srcVec (m ((c : Thread nD τ).loc main_arg1))))
          (plainCol (dstVec (m ((c : Thread nD τ).loc main_arg1)))) p q :=
  (w8_v44 m ρ c p q).trans rfl

end Cert.KernelIdeal.ResultValue

end
-- ==== Proof.LibColumnTake.lean ====
/-
  Taking entries of a vector at a column of start indices, read at an index.

  `x[idx]` for a flat array `x : [N]` and an index vector `idx : [R]` lowers to a gather whose start indices are the
  column `[R, 1]`: the one operand axis is collapsed, there is no offset axis, and a slice is one entry. The result at
  `r` is `x` at the start index `idx[r, 0]` read as a signed integer and clamped into `[0, N − 1]` — the same row
  selection as a gather of whole rows of an `[N, C]` table by the same column. With it, the cast of a column
  `[a, 1]` back to the vector `[a]` read at an index.
-/
import Idealize.ShloMosaic.Lib.Pipeline.Value
import Idealize.ShloMosaic.Lib.ValueIdx
import proofs.«162929_j661424964180_2_alg».proof.Proof.LibRowGather

noncomputable section

namespace Cert.Lib.ColumnTake

open Idealize.ShloMosaic Idealize.ShloMosaic.ValueIdx Cert.Lib.RowGather

variable {α : Type}

/-- The dimension numbers of taking entries at a column of start indices: no offset axis, the operand's one axis
    collapsed and addressed by the start index, the index vector along axis 1 of the start indices, a slice one entry. -/
abbrev colDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the operand at the entry the start index `idx[r, 0]` selects. -/
theorem gather_column_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (colDims N R wf) x idx (ix1 r) = x (ix1 (rowOf N hN (idx (ix2 r 0)))) := by
  unfold Host.gather
  congr 1
  funext a
  obtain rfl : a = 0 := Subsingleton.elim _ _
  refine Fin.ext ?_
  show (colDims N R wf).start (ix1 r) idx 0 + (colDims N R wf).batchCoord (ix1 r) 0 + (colDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx (ix1 r) ⟨List.idxOf (0 : Fin 1) (colDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- An `[a, 1]` column cast to the vector `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.Lib.ColumnTake

end
-- ==== Proof.RefValue.lean ====
/-
  The reference's result array read at an index, on the extended reals.

  The reference builds its result from whole arrays: a projection, a gather of the source rows, a product with the
  per-edge weight spread over the columns, an accumulating scatter into the target rows, the bias spread over the
  rows, and between the two rounds a maximum with zero. Read at node `p` and channel `q` each of these is one step:
  the scatter is a sum over the edges landing on `p`, the gather reads the row the edge's start index selects, the
  projection is a sum over the inner index. The result is the network `arrRefOut` in which every edge message is
  weighted by the product of the weights of its two end nodes.
-/
import proofs.«162929_j661424964180_2_alg».proof.Proof.HostTerms
import proofs.«162929_j661424964180_2_alg».proof.Proof.GcnLaw
import proofs.«162929_j661424964180_2_alg».proof.Proof.LibColumnTake
import proofs.«162929_j661424964180_2_alg».proof.Proof.LibPlainDot
import proofs.«162929_j661424964180_2_alg».proof.Proof.LibBcastChain
import Idealize.ShloMosaic.PureOps.Ideal.Laws

noncomputable section

namespace Cert.Gcn.RefValue

open Cert.ReferenceIdeal Cert.ReferenceIdeal.Gen Idealize.ShloMosaic Idealize.ShloMosaic.ValueIdx
open Cert.Lib.RowGather Cert.Lib.RowScatter Cert.Lib.RowScatterSum Cert.Lib.ColumnTake Cert.Lib.PlainDot Cert.Lib.BcastChain
open Cert.Gcn Cert.Gcn.Terms

/-- The weight of edge `k`: the weight of the node its source index selects times the weight of the node its target
    index selects. -/
theorem normVec_apply (e : IVec S2x800000 32) (k : Fin 850000) :
    (normVec e : S850000.Idx → EReal) (ix1 k)
      = (dinvVec e : S50000.Idx → EReal) (ix1 (nodeOf (wrapCol (srcVec e)) k))
        * (dinvVec e : S50000.Idx → EReal) (ix1 (nodeOf (wrapCol (dstVec e)) k)) := by
  unfold normVec
  rw [mulf_apply]
  have hd : gather_S50000_S850000x1_S850000_n_0_n_n_0_1_1
      = colDims 50000 850000 gather_S50000_S850000x1_S850000_n_0_n_n_0_1_1_wf := rfl
  rw [hd, gather_column_apply (by decide) _ (dinvVec e) (wrapCol (srcVec e)) k,
    gather_column_apply (by decide) _ (dinvVec e) (wrapCol (dstVec e)) k]
  rfl

/-- The hidden layer at node `n` and channel `k`: the maximum with zero of the bias plus the sum, over the edges landing
    on `n`, of the projected source row's entry times the edge's weight. -/
theorem refHiddenArr_apply (x0 : FVec Ideal S50000x256 .f32) (e : IVec S2x800000 32) (x2 : FVec Ideal S256x256 .f32)
    (x3 : FVec Ideal S256 .f32) (n : Fin 50000) (k : Fin 256) :
    (refHiddenArr x0 e x2 x3 : S50000x256.Idx → EReal) (ix2 n k)
      = refHidden (fun n => landing 50000 (plainCol (dstVec e)) n) (nodeOf (wrapCol (srcVec e)))
          (nodeOf (wrapCol (dstVec e))) (fun n => (dinvVec e : S50000.Idx → EReal) (ix1 n))
          (fun n j => (x0 : S50000x256.Idx → EReal) (ix2 n j)) (fun j k => (x2 : S256x256.Idx → EReal) (ix2 j k))
          (fun k => (x3 : S256.Idx → EReal) (ix1 k)) n k := by
  have hs : scatter_S50000x256_S850000x1_S850000x256_1_0_0_1
      = rowScat 50000 850000 256 scatter_S50000x256_S850000x1_S850000x256_1_0_0_1_wf := rfl
  have hg : gather_S50000x256_S850000x1_S850000x256_1_0_n_n_0_1_1256
      = rowDims 50000 850000 256 gather_S50000x256_S850000x1_S850000x256_1_0_n_n_0_1_1256_wf := rfl
  have hdot : dot_S50000x256_S256x256_S50000x256_1_0_0_1_n_n = DotDims.plain 50000 256 256 := rfl
  unfold refHiddenArr refHidden
  rw [maximumf_apply, addf_apply, overAll_apply, constant_apply, Ideal.ofBits_zero_f32, overRows_apply,
    scatterAdd_rows_apply _ _ hs, overAll_apply, constant_apply, Ideal.ofBits_zero_f32]
  refine congrArg (fun s => max (((0 : EReal) + s) + (x3 (ix1 k) : EReal)) 0) (Finset.sum_congr rfl fun r _ => ?_)
  rw [mulf_apply, overCols_apply, normVec_apply, hg, gather_rows_apply (by decide)]
  simp only [Host.dotGeneral]
  rw [dotGeneral_eq _ hdot none .single, rowsByCols_apply]
  rfl

/-- The reference's result at node `p` and channel `q` is the network with every edge message weighted by the product
    of the weights of the edge's two end nodes. -/
theorem refArr_apply (x0 : FVec Ideal S50000x256 .f32) (e : IVec S2x800000 32) (x2 : FVec Ideal S256x256 .f32)
    (x3 : FVec Ideal S256 .f32) (x4 : FVec Ideal S256x128 .f32) (x5 : FVec Ideal S128 .f32) (p : Fin 50000) (q : Fin 128) :
    (refArr x0 e x2 x3 x4 x5 : S50000x128.Idx → EReal) (ix2 p q)
      = arrRefOut x0 x2 x3 x4 x5 (dinvVec e) (wrapCol (srcVec e)) (wrapCol (dstVec e)) (plainCol (dstVec e)) p q := by
  have hs : scatter_S50000x128_S850000x1_S850000x128_1_0_0_1
      = rowScat 50000 850000 128 scatter_S50000x128_S850000x1_S850000x128_1_0_0_1_wf := rfl
  have hg : gather_S50000x128_S850000x1_S850000x128_1_0_n_n_0_1_1128
      = rowDims 50000 850000 128 gather_S50000x128_S850000x1_S850000x128_1_0_n_n_0_1_1128_wf := rfl
  have hdot : dot_S50000x256_S256x128_S50000x128_1_0_0_1_n_n = DotDims.plain 50000 256 128 := rfl
  unfold refArr arrRefOut refOut
  rw [addf_apply, overRows_apply, scatterAdd_rows_apply _ _ hs, overAll_apply, constant_apply, Ideal.ofBits_zero_f32]
  refine congrArg (fun s => ((0 : EReal) + s) + (x5 (ix1 q) : EReal)) (Finset.sum_congr rfl fun r _ => ?_)
  rw [mulf_apply, overCols_apply, normVec_apply, hg, gather_rows_apply (by decide)]
  simp only [Host.dotGeneral]
  rw [dotGeneral_eq _ hdot none .single,
    show ∀ a : Fin 50000, rowsByCols (refHiddenArr x0 e x2 x3 : S50000x256.Idx → EReal) (x4 : S256x128.Idx → EReal) (ix2 a q)
      = ∑ k : Fin 256, (refHiddenArr x0 e x2 x3 : S50000x256.Idx → EReal) (ix2 a k) * (x4 : S256x128.Idx → EReal) (ix2 k q)
      from fun a => rfl]
  simp only [refHiddenArr_apply]
  rfl

end Cert.Gcn.RefValue

end
-- ==== Proof.NodeWeights.lean ====
/-
  Two facts about the host-side arrays of the graph convolution.

  (a) Every node weight is a real number. The degree of a node is zero plus a finite sum of ones, a natural number; the
      weight is the inverse square root of the degree where the degree is positive (real, since the degree is a positive
      real) and zero elsewhere.
  (b) An edge that lands on node n in the scatter by the plain column of targets selects node n in the gather by the
      wrapped column of targets: landing says the target word, read signed, is n ≥ 0, so the wrap (which shifts only
      negative words) leaves it alone, and the gather's clamp into [0, 49999] leaves n alone.
-/
import proofs.«162929_j661424964180_2_alg».proof.Proof.HostTerms
import proofs.«162929_j661424964180_2_alg».proof.Proof.LibAggLinear
import proofs.«162929_j661424964180_2_alg».proof.Proof.LibRowGather
import proofs.«162929_j661424964180_2_alg».proof.Proof.LibRowScatterSum
import proofs.«162929_j661424964180_2_alg».proof.Proof.GcnLaw
import Idealize.ShloMosaic.Lib.Pipeline.Value
import Idealize.ShloMosaic.Lib.ValueIdx
import Idealize.ShloMosaic.PureOps.Ideal.Laws

noncomputable section

namespace Cert.Gcn.NodeWeights

open Cert.ReferenceIdeal Cert.ReferenceIdeal.Gen Idealize.ShloMosaic Idealize.ShloMosaic.ValueIdx
open Cert.Lib.AggLinear Cert.Lib.RowGather Cert.Lib.RowScatterSum Cert.Gcn.Terms

/-! ## (a) The node weights are real -/

/-- The word 0x3F800000 is one. -/
theorem one_word : Ideal.ofBits .f32 0x3F800000#32 = (1 : EReal) := by
  have h : ((8388608 : ℝ) * ((2 : ℝ) ^ 23)⁻¹ : ℝ) = 1 := by norm_num
  simp [Ideal.ofBits, Ideal.ieee]
  exact_mod_cast h

/-- An accumulating scatter of ones into zeros is, at every entry, a natural number. -/
theorem scatter_ones {s si su : Shape} (d : ScatterDims s si su) {w : Nat} (idx : IVec si w) (x : s.Idx → EReal)
    (upd : su.Idx → EReal) (i : s.Idx) (hx : x i = 0) (hu : ∀ j, upd j = 1) :
    ∃ n : ℕ, Ideal.hostScatterAdd d x idx upd i = ((n : ℝ) : EReal) := by
  unfold Ideal.hostScatterAdd
  rw [hx, zero_add, Finset.sum_congr rfl (fun j _ => hu j), sum_one_eq]
  exact ⟨_, rfl⟩

/-- The accumulating scatter over the extended reals, by definition. -/
theorem scatterAdd_eq {s si u : Shape} {w : Nat} {φ : FTy} (d : ScatterDims s si u) (x : FVec Ideal s φ) (idx : IVec si w)
    (upd : FVec Ideal u φ) : Host.scatterAdd d x idx upd = Ideal.hostScatterAdd d x idx upd := rfl

/-- A scalar constant spread over a shape reads the constant's word everywhere. -/
theorem bcast_const_apply {s : Shape} (h : S_.BroadcastsInDim s (![] : Fin 0 → Fin s.rank)) (b : BitVec 32) (i : s.Idx) :
    broadcastInDim s ![] h (constant (F := Ideal) S_ .f32 b) i = Ideal.ofBits .f32 b := rfl

/-- The degree of a node is a natural number. -/
theorem deg_nat (e : IVec S2x800000 32) (i : S50000.Idx) : ∃ n : ℕ, degVec e i = ((n : ℝ) : EReal) := by
  unfold degVec
  rw [scatterAdd_eq]
  exact scatter_ones _ _ _ _ i ((bcast_const_apply _ _ i).trans Ideal.ofBits_zero_f32)
    (fun j => (bcast_const_apply _ _ j).trans one_word)

/-- The inverse square root of a positive real is real. -/
theorem isReal_rsqrt_pos (r : ℝ) (hr : 0 < r) : IsReal (Ideal.rsqrt (r : EReal)) := by
  rw [Ideal.rsqrt_coe, if_neg (not_lt.mpr hr.le), if_neg hr.ne']
  exact ⟨_, rfl⟩

/-- A selection read at an index. -/
theorem select_apply {s : Shape} {α : Type} (c : IVec s 1) (a b : s.Idx → α) (i : s.Idx) :
    select c a b i = Scalar.select (c i) (a i) (b i) := rfl

/-- A comparison over the extended reals read at an index. -/
theorem cmpf_apply {s : Shape} {φ : FTy} (p : CmpFPredicate) (x y : FVec Ideal s φ) (i : s.Idx) :
    cmpf p x y i = Ideal.cmp p (x i) (y i) := rfl

/-- The host's inverse square root over the extended reals read at an index. -/
theorem hostRsqrt_apply {s : Shape} {φ : FTy} (x : FVec Ideal s φ) (i : s.Idx) : Host.rsqrt x i = Ideal.rsqrt (x i) := rfl

/-- A scalar constant spread over a shape reads the constant's word everywhere (the constant under an identity). -/
theorem bcast_id_const_apply {s : Shape} (h : S_.BroadcastsInDim s (![] : Fin 0 → Fin s.rank)) (b : BitVec 32) (i : s.Idx) :
    broadcastInDim s ![] h (id (constant (F := Ideal) S_ .f32 b)) i = Ideal.ofBits .f32 b := rfl

/-- Every node weight is a real number. -/
theorem dinv_isReal (e : IVec S2x800000 32) (i : S50000.Idx) : IsReal (dinvVec e i) := by
  obtain ⟨n, hn⟩ := deg_nat e i
  unfold dinvVec
  rw [select_apply, cmpf_apply, hostRsqrt_apply, bcast_const_apply, bcast_id_const_apply, hn, Ideal.ofBits_zero_f32]
  unfold Scalar.select
  split
  · rename_i hc
    have hpos : (0 : ℝ) < (n : ℝ) := by
      by_contra hneg
      have hf : ¬ ((0 : EReal) < ((n : ℝ) : EReal)) := fun hlt => hneg (by exact_mod_cast hlt)
      have h0 : Ideal.cmp .ogt (((n : ℝ) : EReal)) 0 = 0#1 := by
        show BitVec.ofBool (decide ((0 : EReal) < ((n : ℝ) : EReal))) = 0#1
        rw [decide_eq_false hf]
        rfl
      rw [h0] at hc
      exact absurd hc (by decide)
    exact isReal_rsqrt_pos _ hpos
  · exact isReal_zero

/-! ## (b) Landing on a node selects that node -/

/-- The plain column of a list reads, at row k, the list's entry k. -/
theorem plainCol_apply (v : IVec S850000 32) (k : Fin 850000) : plainCol v (ix2 k 0) = v (ix1 k) := by
  unfold plainCol
  exact broadcastInDim_apply ![0] bcast_S850000_S850000x1_0 v (ix2 k (0 : Fin 1)) (ix1 k) (fun a => by
    match a with
    | ⟨0, _⟩ =>
      show k.val = if (850000 : ℕ) = 1 then 0 else k.val
      split
      · omega
      · rfl)

/-- The wrapped column of a list reads, at row k, the list's entry k, shifted up by 50000 when it is negative. -/
theorem wrapCol_apply (v : IVec S850000 32) (k : Fin 850000) :
    wrapCol v (ix2 k 0)
      = Scalar.select (IntOp.cmpi .slt (v (ix1 k)) 0#32) (IntOp.addi (v (ix1 k)) 50000#32) (v (ix1 k)) := by
  unfold wrapCol
  exact broadcastInDim_apply ![0] bcast_S850000_S850000x1_0 _ (ix2 k (0 : Fin 1)) (ix1 k) (fun a => by
    match a with
    | ⟨0, _⟩ =>
      show k.val = if (850000 : ℕ) = 1 then 0 else k.val
      split
      · omega
      · rfl)

/-- A word that is nonnegative read signed is not below zero: the wrap leaves it alone. -/
theorem select_of_nonneg (b c : BitVec 32) (hb : 0 ≤ b.toInt) : Scalar.select (IntOp.cmpi .slt b 0#32) c b = b := by
  unfold Scalar.select IntOp.cmpi
  have hs : b.slt 0#32 = false := by
    simp only [BitVec.slt, decide_eq_false_iff_not, not_lt]
    simpa using hb
  rw [hs]
  rfl

/-- A word that reads signed as a node number selects that node. -/
theorem rowOf_of_toInt (b : BitVec 32) (n : Fin 50000) (hb : b.toInt = (n.val : Int)) : rowOf 50000 (by decide) b = n := by
  apply Fin.ext
  show min b.toInt.toNat (50000 - 1) = n.val
  rw [hb]
  have := n.isLt
  omega

/-- For any list of targets: an edge landing on node n by the plain column selects node n by the wrapped column. -/
theorem landing_node_of (v : IVec S850000 32) (n : Fin 50000) (k : Fin 850000)
    (h : k ∈ landing 50000 (plainCol v) n) : Cert.Gcn.nodeOf (wrapCol v) k = n := by
  unfold landing at h
  rw [Finset.mem_filter, plainCol_apply] at h
  have hb : (v (ix1 k)).toInt = (n.val : Int) := h.2
  unfold Cert.Gcn.nodeOf
  rw [wrapCol_apply, select_of_nonneg _ _ (by rw [hb]; exact Int.natCast_nonneg _)]
  exact rowOf_of_toInt _ n hb

/-- An edge that lands on node n in the scatter by the targets selects node n in the gather by the targets. -/
theorem landing_node (e : IVec S2x800000 32) (n : Fin 50000) (k : Fin 850000)
    (h : k ∈ landing 50000 (plainCol (dstVec e)) n) : Cert.Gcn.nodeOf (wrapCol (dstVec e)) k = n :=
  landing_node_of (dstVec e) n k h

end Cert.Gcn.NodeWeights

end
-- ==== Proof.Finite.lean ====
/-
  From the precondition to the reals. The precondition says, of each float input, that every entry's absolute value
  is below +∞ (a reduction by `and` of the elementwise comparison, from the constant true; the five reductions joined by `and`).
  Over the extended reals the word 0x7F800000 is ⊤, the absolute value is max x (-x), and max x (-x) < ⊤ excludes
  x = ⊤ and x = ⊥: x is a real number.
-/
import proofs.«162929_j661424964180_2_alg».proof.Proof.Gen.Pre_finite_inputs
import proofs.«162929_j661424964180_2_alg».proof.Proof.LibAggLinear
import Idealize.ShloMosaic.Lib.ReduceAll
import Idealize.ShloMosaic.Lib.ValueIdx
import Idealize.ShloMosaic.PureOps.Ideal.Laws

noncomputable section

namespace Cert.Gcn.Finite

open Idealize.ShloMosaic Cert.Lib.AggLinear Cert.Pre_finite_inputs

/-- The rank-0 shape has one index. -/
instance : Subsingleton S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [inf_word] at h
  induction x using EReal.rec with
  | bot => simp [Ideal.cmp] at h
  | top => simp [Ideal.cmp] at h
  | coe r => exact ⟨r, rfl⟩

/-- One entry: the comparison |a i| < +∞ being true makes a i real. -/
theorem elem_real {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) : IsReal (a i) :=
  isReal_of_abs_lt (a i) h

/-- One input: the reduction by `and` over all axes being true makes every entry real. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32)))
          (constantI S_ 1 1#1) hr hu ValueIdx.ix0 = 1#1) (i : s.Idx) : IsReal (a i) :=
  elem_real a hb i (Host.reduce_andi_all _ _ hr hu _ h i)

/-- THE PRECONDITION DECODED: every entry of every float input is a real number. -/
theorem real_of_pre (a0 : FVec Ideal Cert.Pre_finite_inputs.S50000x256 .f32) (a1 : IVec Cert.Pre_finite_inputs.S2x800000 32)
    (a2 : FVec Ideal Cert.Pre_finite_inputs.S256x256 .f32) (a3 : FVec Ideal Cert.Pre_finite_inputs.S256 .f32)
    (a4 : FVec Ideal Cert.Pre_finite_inputs.S256x128 .f32) (a5 : FVec Ideal Cert.Pre_finite_inputs.S128 .f32)
    (h : Cert.Pre_finite_inputs.fn (F := Ideal) a0 a1 a2 a3 a4 a5 = (fun _ => 1#1)) :
    (∀ i, IsReal (a0 i)) ∧ (∀ i, IsReal (a2 i)) ∧ (∀ i, IsReal (a3 i)) ∧ (∀ i, IsReal (a4 i)) ∧ (∀ i, IsReal (a5 i)) := by
  have e := congrFun h ValueIdx.ix0
  dsimp only [Cert.Pre_finite_inputs.fn, Cert.Pre_finite_inputs.fn_part1] at e
  simp only [andi, IntOp.andi_eq_one] at e
  obtain ⟨⟨⟨⟨h0, h2⟩, h3⟩, h4⟩, h5⟩ := e
  exact ⟨all_real a0 _ _ _ h0, all_real a2 _ _ _ h2, all_real a3 _ _ _ h3, all_real a4 _ _ _ h4, all_real a5 _ _ _ h5⟩

end Cert.Gcn.Finite

end
-- ==== Proof.Bridge.lean ====
/-
  The two sides joined at the level of whole arrays.

  An array that reads, at every node `p` and channel `q`, the network with the rows scaled before and after each
  aggregation is the reference's result array, provided every float input is finite. The reference's array reads at
  `(p, q)` the network with every edge message weighted by the product of its two end nodes' weights; the two
  arrangements agree on real data, because an edge landing on a node selects that node on the landing side and every
  node weight is a real number; and the precondition makes every entry of every float input real.
-/
import proofs.«162929_j661424964180_2_alg».proof.Proof.RefValue
import proofs.«162929_j661424964180_2_alg».proof.Proof.NodeWeights
import proofs.«162929_j661424964180_2_alg».proof.Proof.Finite
import proofs.«162929_j661424964180_2_alg».proof.Proof.GcnLaw

noncomputable section

namespace Cert.Gcn.Bridge

open Cert.ReferenceIdeal Cert.ReferenceIdeal.Gen Idealize.ShloMosaic Idealize.ShloMosaic.ValueIdx
open Cert.Gcn Cert.Gcn.Terms

/-- An array equal, index by index, to the rows-scaled arrangement of the network is the reference's result. -/
theorem bridge (x0 : FVec Ideal S50000x256 .f32) (e : IVec S2x800000 32) (x2 : FVec Ideal S256x256 .f32)
    (x3 : FVec Ideal S256 .f32) (x4 : FVec Ideal S256x128 .f32) (x5 : FVec Ideal S128 .f32)
    (hpre : Cert.Pre_finite_inputs.fn (F := Ideal) x0 e x2 x3 x4 x5 = (fun _ => 1#1))
    (K : S50000x128.Idx → EReal)
    (hK : ∀ (p : Fin 50000) (q : Fin 128), K (ix2 p q)
      = arrKerOut x0 x2 x3 x4 x5 (dinvVec e) (wrapCol (srcVec e)) (plainCol (dstVec e)) p q) :
    K = refArr x0 e x2 x3 x4 x5 := by
  obtain ⟨h0, h2, h3, h4, _⟩ := Cert.Gcn.Finite.real_of_pre x0 e x2 x3 x4 x5 hpre
  funext j
  obtain ⟨p, q, rfl⟩ : ∃ (p : Fin 50000) (q : Fin 128), j = ix2 p q := ⟨j 0, j 1, eq_ix2 j⟩
  rw [hK, Cert.Gcn.RefValue.refArr_apply]
  exact arr_out_eq x0 x2 x3 x4 x5 (dinvVec e) (wrapCol (srcVec e)) (wrapCol (dstVec e)) (plainCol (dstVec e))
    (Cert.Gcn.NodeWeights.landing_node e) (Cert.Gcn.NodeWeights.dinv_isReal e) h0 h2 h3 h4 p q

end Cert.Gcn.Bridge

end
-- ==== Proof.lean ====
/-
  A two-layer graph convolution: the Pallas kernel against its jnp reference, over the extended reals.

  Both programs build, from the edge index, the source and target lists (with a self-loop per node), the degree of
  every node, and the node weight d = deg^(-1/2) (zero where the degree is zero). The reference weights the message of
  every edge by d[source] · d[target] before adding it into the target row; the kernel scales the rows of each dense
  product by d once before the edges read them and scales each aggregated row by d once after, inside three pallas
  regions (product · d; relu(aggregate · d + bias) · W₂ · d; aggregate · d + bias). On the rows an edge lands on, the
  target weight is the constant d[row], and under the precondition every entry of every float input is a real number,
  so the degrees, the weights and every intermediate entry are real and the constant factor moves across the finite sum:
  the two results are equal entry by entry (`Cert.Gcn.arr_out_eq`).

  The frames of the two kernel programs are the generated ones; the reference's frame is its run with the result
  dropped. The idealization rewrote nothing, so `preserves` is `True`.
-/
import proofs.«162929_j661424964180_2_alg».proof.Defs
import proofs.«162929_j661424964180_2_alg».proof.Proof.Gen.Kernel
import proofs.«162929_j661424964180_2_alg».proof.Proof.Gen.Kernel.Skeleton
import proofs.«162929_j661424964180_2_alg».proof.Proof.Gen.Kernel.Launch
import proofs.«162929_j661424964180_2_alg».proof.Proof.Gen.Kernel.Points
import proofs.«162929_j661424964180_2_alg».proof.Proof.Gen.Kernel.Frame
import proofs.«162929_j661424964180_2_alg».proof.Proof.Gen.KernelIdeal
import proofs.«162929_j661424964180_2_alg».proof.Proof.Gen.KernelIdeal.Skeleton
import proofs.«162929_j661424964180_2_alg».proof.Proof.Gen.KernelIdeal.Launch
import proofs.«162929_j661424964180_2_alg».proof.Proof.Gen.KernelIdeal.Points
import proofs.«162929_j661424964180_2_alg».proof.Proof.Gen.KernelIdeal.Frame
import proofs.«162929_j661424964180_2_alg».proof.Proof.Gen.ReferenceIdeal
import proofs.«162929_j661424964180_2_alg».proof.Proof.Gen.Pre_finite_inputs
import proofs.«162929_j661424964180_2_alg».proof.Proof.RefRunPatched
import proofs.«162929_j661424964180_2_alg».proof.Proof.RefRunValue
import proofs.«162929_j661424964180_2_alg».proof.Proof.KerRun
import proofs.«162929_j661424964180_2_alg».proof.Proof.KerValue
import proofs.«162929_j661424964180_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end at the reference's array of the kernel's arguments: the kernel's result buffer is that array entry
    by entry (the chain through its regions and the law on real data), and the reference's is it by definition, its
    arguments being the kernel's. -/
theorem algebraic : Cert.algebraic_KernelIdeal_ReferenceIdeal := by
  intro m ρ m' ρ' hpre hagree
  refine ⟨fun c => Cert.Gcn.Terms.refArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunValue.run (F := Ideal) m ρ)
    exact Cert.Gcn.Bridge.bridge _ _ _ _ _ _ (hpre c) _ (Cert.KernelIdeal.ResultValue.result_apply m ρ c)
  · refine (θ_run Cert.ReferenceIdeal.defs _ _).mono (fun r h c => ⟨(h c).1.trans ?_, (h c).2⟩)
      (Cert.ReferenceIdeal.ValueP.run (F := Ideal) m' ρ')
    rw [Cert.Gcn.RefRunValue.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
